-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048 : Shape := ⟨2, ![16, 2048]⟩
abbrev S8000x256 : Shape := ⟨2, ![8000, 256]⟩
abbrev S64000001x1 : Shape := ⟨2, ![64000001, 1]⟩
abbrev S8000x1 : Shape := ⟨2, ![8000, 1]⟩
abbrev S_ : Shape := ⟨0, ![]⟩
abbrev S1x256 : Shape := ⟨2, ![1, 256]⟩

class Facts : Prop where
  bcast_S_S8000x256 : S_.BroadcastsInDim S8000x256 (![] : Fin 0 → Fin S8000x256.rank)
  reducesTo_S8000x256_S_d0_1 : S8000x256.ReducesTo [0, 1] S_
  h_S_ : 0 < S_.numel
  bcast_S_S64000001x1 : S_.BroadcastsInDim S64000001x1 (![] : Fin 0 → Fin S64000001x1.rank)
  reducesTo_S64000001x1_S_d0_1 : S64000001x1.ReducesTo [0, 1] S_
  bcast_S_S8000x1 : S_.BroadcastsInDim S8000x1 (![] : Fin 0 → Fin S8000x1.rank)
  reducesTo_S8000x1_S_d0_1 : S8000x1.ReducesTo [0, 1] S_
  slices_S8000x256_S1x256_0_0 : S8000x256.Slices ![0, 0] S1x256
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  main_v18

def fn {F : FTy → Type} [FloatOps F] (main_arg0 : IVec S16x2048 32) (main_arg1 : FVec F S8000x256 .f32) (main_arg2 : FVec F S64000001x1 .f32) (main_arg3 : FVec F S8000x1 .f32) : IVec S_ 1 :=
  let main_v0 : FVec F S8000x256 .f32 := Host.absf main_arg1
  let main_cst : FVec F S_ .f32 := constant S_ .f32 0x7F800000#32
  let main_v1 : FVec F S8000x256 .f32 := broadcastInDim S8000x256 ![] bcast_S_S8000x256 main_cst
  let main_v2 : IVec S8000x256 1 := cmpf .olt main_v0 main_v1
  let main_c : IVec S_ 1 := constantI S_ 1 1#1
  let main_v3 : IVec S_ 1 := (fun x v => Host.reduce IntOp.andi x v reducesTo_S8000x256_S_d0_1 h_S_) main_v2 main_c
  let main_v4 : FVec F S64000001x1 .f32 := Host.absf main_arg2
  let main_cst_0 : FVec F S_ .f32 := constant S_ .f32 0x7F800000#32
  let main_v5 : FVec F S64000001x1 .f32 := broadcastInDim S64000001x1 ![] bcast_S_S64000001x1 main_cst_0
  let main_v6 : IVec S64000001x1 1 := cmpf .olt main_v4 main_v5
  let main_c_1 : IVec S_ 1 := constantI S_ 1 1#1
  let main_v7 : IVec S_ 1 := (fun x v => Host.reduce IntOp.andi x v reducesTo_S64000001x1_S_d0_1 h_S_) main_v6 main_c_1
  let main_v8 : IVec S_ 1 := andi main_v3 main_v7
  let main_v9 : FVec F S8000x1 .f32 := Host.absf main_arg3
  let main_cst_2 : FVec F S_ .f32 := constant S_ .f32 0x7F800000#32
  let main_v10 : FVec F S8000x1 .f32 := broadcastInDim S8000x1 ![] bcast_S_S8000x1 main_cst_2
  let main_v11 : IVec S8000x1 1 := cmpf .olt main_v9 main_v10
  let main_c_3 : IVec S_ 1 := constantI S_ 1 1#1
  let main_v12 : IVec S_ 1 := (fun x v => Host.reduce IntOp.andi x v reducesTo_S8000x1_S_d0_1 h_S_) main_v11 main_c_3
  let main_v13 : IVec S_ 1 := andi main_v8 main_v12
  let main_v14 : FVec F S1x256 .f32 := (extractStridedSlice S1x256 ![0, 0] · slices_S8000x256_S1x256_0_0) main_arg1
  let main_cst_4 : FVec F S_ .f32 := constant S_ .f32 0x00000000#32
  let main_v15 : FVec F S1x256 .f32 := broadcastInDim S1x256 ![] bcast_S_S1x256 main_cst_4
  let main_v16 : IVec S1x256 1 := cmpf .oeq main_v14 main_v15
  fn_part1 (F := F) main_v13 main_v16
-- ==== Kernel.lean ====
abbrev S16x2048 : Shape := ⟨2, ![16, 2048]⟩
abbrev S8000x256 : Shape := ⟨2, ![8000, 256]⟩
abbrev S64000001x1 : Shape := ⟨2, ![64000001, 1]⟩
abbrev S8000x1 : Shape := ⟨2, ![8000, 1]⟩
abbrev S_ : Shape := ⟨0, ![]⟩
abbrev S16x2064 : Shape := ⟨2, ![16, 2064]⟩
abbrev S8 : Shape := ⟨1, ![8]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x16x1 : Shape := ⟨3, ![2048, 16, 1]⟩
abbrev S16x2048x16 : Shape := ⟨3, ![16, 2048, 16]⟩
abbrev S16x2048x1 : Shape := ⟨3, ![16, 2048, 1]⟩
abbrev S16x2048x16x1 : Shape := ⟨4, ![16, 2048, 16, 1]⟩
abbrev S16x16x2048 : Shape := ⟨3, ![16, 16, 2048]⟩
abbrev S16x2048x256 : Shape := ⟨3, ![16, 2048, 256]⟩
abbrev S16x2064x256 : Shape := ⟨3, ![16, 2064, 256]⟩
abbrev S16x256 : Shape := ⟨2, ![16, 256]⟩
abbrev S8x2064x256 : Shape := ⟨3, ![8, 2064, 256]⟩
abbrev S8x16x2048 : Shape := ⟨3, ![8, 16, 2048]⟩
abbrev S8x2048 : Shape := ⟨2, ![8, 2048]⟩
abbrev S8x256 : Shape := ⟨2, ![8, 256]⟩
abbrev S8x144x256 : Shape := ⟨3, ![8, 144, 256]⟩
abbrev S8x16x128 : Shape := ⟨3, ![8, 16, 128]⟩
abbrev S8x128 : Shape := ⟨2, ![8, 128]⟩
abbrev S8x128x1 : Shape := ⟨3, ![8, 128, 1]⟩
abbrev S8x128x256 : Shape := ⟨3, ![8, 128, 256]⟩
abbrev S8x1x128 : Shape := ⟨3, ![8, 1, 128]⟩

abbrev nBuf : Space → Nat
  | .hbm => 75
  | .vmem => 8
  | .smem => 0
  | _ => 0

abbrev bufTy : (tb : Table) → Fin (tcTables nBuf tb) → BufTy
  | .hbm, ⟨0, _⟩ => ⟨S16x2048, .i32⟩
  | .hbm, ⟨1, _⟩ => ⟨S8000x256, .f32⟩
  | .hbm, ⟨2, _⟩ => ⟨S64000001x1, .f32⟩
  | .hbm, ⟨3, _⟩ => ⟨S8000x1, .f32⟩
  | .hbm, ⟨4, _⟩ => ⟨S_, .i32⟩
  | .hbm, ⟨5, _⟩ => ⟨S_, .i32⟩
  | .hbm, ⟨6, _⟩ => ⟨S16x2064, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S16, .i32⟩
  | .hbm, ⟨13, _⟩ => ⟨S2048, .i32⟩
  | .hbm, ⟨14, _⟩ => ⟨S2048x1, .i32⟩
  | .hbm, ⟨15, _⟩ => ⟨S1x16, .i32⟩
  | .hbm, ⟨16, _⟩ => ⟨S2048x16, .i32⟩
  | .hbm, ⟨17, _⟩ => ⟨S2048x16, .i32⟩
  | .hbm, ⟨18, _⟩ => ⟨S2048x16, .i32⟩
  | .hbm, ⟨19, _⟩ => ⟨S_, .i32⟩
  | .hbm, ⟨20, _⟩ => ⟨S2048x16, .i32⟩
  | .hbm, ⟨21, _⟩ => ⟨S2048x16, .i1⟩
  | .hbm, ⟨22, _⟩ => ⟨S_, .i32⟩
  | .hbm, ⟨23, _⟩ => ⟨S2048x16, .i32⟩
  | .hbm, ⟨24, _⟩ => ⟨S2048x16, .i32⟩
  | .hbm, ⟨25, _⟩ => ⟨S2048x16, .i32⟩
  | .hbm, ⟨26, _⟩ => ⟨S2048x16x1, .i32⟩
  | .hbm, ⟨27, _⟩ => ⟨S16x2048x16, .i32⟩
  | .hbm, ⟨28, _⟩ => ⟨S16x2048x1, .i32⟩
  | .hbm, ⟨29, _⟩ => ⟨S_, .i32⟩
  | .hbm, ⟨30, _⟩ => ⟨S16x2048x1, .i32⟩
  | .hbm, ⟨31, _⟩ => ⟨S16x2048x1, .i32⟩
  | .hbm, ⟨32, _⟩ => ⟨S16x2048x16, .i32⟩
  | .hbm, ⟨33, _⟩ => ⟨S16x2048x16, .i32⟩
  | .hbm, ⟨34, _⟩ => ⟨S_, .i32⟩
  | .hbm, ⟨35, _⟩ => ⟨S16x2048x16, .i32⟩
  | .hbm, ⟨36, _⟩ => ⟨S16x2048x16, .i1⟩
  | .hbm, ⟨37, _⟩ => ⟨S_, .i32⟩
  | .hbm, ⟨38, _⟩ => ⟨S_, .i32⟩
  | .hbm, ⟨39, _⟩ => ⟨S16x2048x16, .i32⟩
  | .hbm, ⟨40, _⟩ => ⟨S16x2048x16, .i32⟩
  | .hbm, ⟨41, _⟩ => ⟨S_, .i32⟩
  | .hbm, ⟨42, _⟩ => ⟨S16x2048x16, .i32⟩
  | .hbm, ⟨43, _⟩ => ⟨S16x2048x16, .i1⟩
  | .hbm, ⟨44, _⟩ => ⟨S_, .i32⟩
  | .hbm, ⟨45, _⟩ => ⟨S16x2048x16, .i32⟩
  | .hbm, ⟨46, _⟩ => ⟨S16x2048x16, .i32⟩
  | .hbm, ⟨47, _⟩ => ⟨S16x2048x16, .i32⟩
  | .hbm, ⟨48, _⟩ => ⟨S16x2048x16x1, .i32⟩
  | .hbm, ⟨49, _⟩ => ⟨S16x2048x16x1, .f32⟩
  | .hbm, ⟨50, _⟩ => ⟨S16x2048x16, .f32⟩
  | .hbm, ⟨51, _⟩ => ⟨S16x16x2048, .f32⟩
  | .hbm, ⟨52, _⟩ => ⟨S_, .i32⟩
  | .hbm, ⟨53, _⟩ => ⟨S16x2048, .i32⟩
  | .hbm, ⟨54, _⟩ => ⟨S16x2048, .i1⟩
  | .hbm, ⟨55, _⟩ => ⟨S_, .i32⟩
  | .hbm, ⟨56, _⟩ => ⟨S16x2048, .i32⟩
  | .hbm, ⟨57, _⟩ => ⟨S16x2048, .i32⟩
  | .hbm, ⟨58, _⟩ => ⟨S16x2048, .i32⟩
  | .hbm, ⟨59, _⟩ => ⟨S16x2048x1, .i32⟩
  | .hbm, ⟨60, _⟩ => ⟨S16x2048x256, .f32⟩
  | .hbm, ⟨61, _⟩ => ⟨S_, .i32⟩
  | .hbm, ⟨62, _⟩ => ⟨S_, .f32⟩
  | .hbm, ⟨63, _⟩ => ⟨S16x2064x256, .f32⟩
  | .hbm, ⟨64, _⟩ => ⟨S_, .i32⟩
  | .hbm, ⟨65, _⟩ => ⟨S16x2048, .i32⟩
  | .hbm, ⟨66, _⟩ => ⟨S16x2048, .i1⟩
  | .hbm, ⟨67, _⟩ => ⟨S_, .i32⟩
  | .hbm, ⟨68, _⟩ => ⟨S16x2048, .i32⟩
  | .hbm, ⟨69, _⟩ => ⟨S16x2048, .i32⟩
  | .hbm, ⟨70, _⟩ => ⟨S16x2048, .i32⟩
  | .hbm, ⟨71, _⟩ => ⟨S16x2048x1, .i32⟩
  | .hbm, ⟨72, _⟩ => ⟨S16x2048x1, .f32⟩
  | .hbm, ⟨73, _⟩ => ⟨S16x2048, .f32⟩
  | .hbm, ⟨74, _⟩ => ⟨S16x256, .f32⟩
  | .local _ .vmem, ⟨0, _⟩ => ⟨S8x2064x256, .f32⟩
  | .local _ .vmem, ⟨1, _⟩ => ⟨S8x2064x256, .f32⟩
  | .local _ .vmem, ⟨2, _⟩ => ⟨S8x16x2048, .f32⟩
  | .local _ .vmem, ⟨3, _⟩ => ⟨S8x16x2048, .f32⟩
  | .local _ .vmem, ⟨4, _⟩ => ⟨S8x2048, .f32⟩
  | .local _ .vmem, ⟨5, _⟩ => ⟨S8x2048, .f32⟩
  | .local _ .vmem, ⟨6, _⟩ => ⟨S8x256, .f32⟩
  | .local _ .vmem, ⟨7, _⟩ => ⟨S8x256, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_call1_v0 : Ref sig .tc := ⟨.hbm, 38, rfl⟩
abbrev main_call1_v1 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_10 : Ref sig .tc := ⟨.hbm, 61, rfl⟩
abbrev main_call2_v0 : Ref sig .tc := ⟨.hbm, 62, rfl⟩
abbrev main_v43 : Ref sig .tc := ⟨.hbm, 63, rfl⟩
abbrev main_c_11 : Ref sig .tc := ⟨.hbm, 64, rfl⟩
abbrev main_v44 : Ref sig .tc := ⟨.hbm, 65, rfl⟩
abbrev main_v45 : Ref sig .tc := ⟨.hbm, 66, rfl⟩
abbrev main_c_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2064x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S16x2048_S16x2064_000_880 : S16x2048.Pads (![0, 8] : Fin 2 → Nat) ![0, 8] ![0, 0] S16x2064
  h_S_ : 0 < S_.numel
  bcast_S_S8 : S_.BroadcastsInDim S8 (![] : Fin 0 → Fin S8.rank)
  concatenates_S8_S8_S16_d0 : Shape.Concatenates [S8, S8] S16 0
  bcast_S2048_S2048x1_0 : S2048.BroadcastsInDim S2048x1 (![0] : Fin 1 → Fin S2048x1.rank)
  bcast_S16_S1x16_1 : S16.BroadcastsInDim S1x16 (![1] : Fin 1 → Fin S1x16.rank)
  bcast_S2048x1_S2048x16_0_1 : S2048x1.BroadcastsInDim S2048x16 (![0, 1] : Fin 2 → Fin S2048x16.rank)
  bcast_S1x16_S2048x16_0_1 : S1x16.BroadcastsInDim S2048x16 (![0, 1] : Fin 2 → Fin S2048x16.rank)
  bcast_S_S2048x16 : S_.BroadcastsInDim S2048x16 (![] : Fin 0 → Fin S2048x16.rank)
  bcast_S2048x16_S2048x16x1_0_1 : S2048x16.BroadcastsInDim S2048x16x1 (![0, 1] : Fin 2 → Fin S2048x16x1.rank)
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x16_0_1_2 : S16x2048x1.BroadcastsInDim S16x2048x16 (![0, 1, 2] : Fin 3 → Fin S16x2048x16.rank)
  bcast_S_S16x2048x16 : S_.BroadcastsInDim S16x2048x16 (![] : Fin 0 → Fin S16x2048x16.rank)
  bcast_S16x2048x16_S16x2048x16x1_0_1_2 : S16x2048x16.BroadcastsInDim S16x2048x16x1 (![0, 1, 2] : Fin 3 → Fin S16x2048x16x1.rank)
  shapeCasts_S16x2048x16x1_S16x2048x16 : S16x2048x16x1.ShapeCasts S16x2048x16
  transposes_S16x2048x16_S16x16x2048_0_2_1 : S16x2048x16.Transposes [0, 2, 1] S16x16x2048
  bcast_S_S16x2048 : S_.BroadcastsInDim S16x2048 (![] : Fin 0 → Fin S16x2048.rank)
  pads_S16x2048x256_S16x2064x256_000_880_000 : S16x2048x256.Pads (![0, 8, 0] : Fin 3 → Nat) ![0, 8, 0] ![0, 0, 0] S16x2064x256
  shapeCasts_S16x2048x1_S16x2048 : S16x2048x1.ShapeCasts S16x2048
  inb_S8x2064x256_S8x144x256_0_0_0 : ∀ a, (![0, 0, 0] : Fin 3 → Nat) a + S8x144x256.size a ≤ S8x2064x256.size a
  h_S8x144x256 : 0 < S8x144x256.numel
  shapeCasts_S8x144x256_S8x144x256 : S8x144x256.ShapeCasts S8x144x256
  inb_S8x16x2048_S8x16x128_0_0_0 : ∀ a, (![0, 0, 0] : Fin 3 → Nat) a + S8x16x128.size a ≤ S8x16x2048.size a
  h_S8x16x128 : 0 < S8x16x128.numel
  shapeCasts_S8x16x128_S8x16x128 : S8x16x128.ShapeCasts S8x16x128
  inb_S8x2048_S8x128_0_0 : ∀ a, (![0, 0] : Fin 2 → Nat) a + S8x128.size a ≤ S8x2048.size a
  h_S8x128 : 0 < S8x128.numel
  shapeCasts_S8x128_S8x128 : S8x128.ShapeCasts S8x128
  shapeCasts_S8x128_S8x128x1 : S8x128.ShapeCasts S8x128x1
  slices_S8x144x256_o0_8_0_S8x128x256 : S8x144x256.Slices ![0, 8, 0] S8x128x256
  slices_S8x144x256_o0_0_0_S8x128x256 : S8x144x256.Slices ![0, 0, 0] S8x128x256
  slices_S8x16x128_o0_0_0_S8x1x128 : S8x16x128.Slices ![0, 0, 0] S8x1x128
  shapeCasts_S8x1x128_S8x128 : S8x1x128.ShapeCasts S8x128
  broadcasts_S8x128x1_S8x128x256 : S8x128x1.Broadcasts S8x128x256
  slices_S8x144x256_o0_1_0_S8x128x256 : S8x144x256.Slices ![0, 1, 0] S8x128x256
  slices_S8x16x128_o0_1_0_S8x1x128 : S8x16x128.Slices ![0, 1, 0] S8x1x128
  slices_S8x144x256_o0_2_0_S8x128x256 : S8x144x256.Slices ![0, 2, 0] S8x128x256
  slices_S8x16x128_o0_2_0_S8x1x128 : S8x16x128.Slices ![0, 2, 0] S8x1x128
  slices_S8x144x256_o0_3_0_S8x128x256 : S8x144x256.Slices ![0, 3, 0] S8x128x256
  slices_S8x16x128_o0_3_0_S8x1x128 : S8x16x128.Slices ![0, 3, 0] S8x1x128
  slices_S8x144x256_o0_4_0_S8x128x256 : S8x144x256.Slices ![0, 4, 0] S8x128x256
  slices_S8x16x128_o0_4_0_S8x1x128 : S8x16x128.Slices ![0, 4, 0] S8x1x128
  slices_S8x144x256_o0_5_0_S8x128x256 : S8x144x256.Slices ![0, 5, 0] S8x128x256
  slices_S8x16x128_o0_5_0_S8x1x128 : S8x16x128.Slices ![0, 5, 0] S8x1x128
  slices_S8x144x256_o0_6_0_S8x128x256 : S8x144x256.Slices ![0, 6, 0] S8x128x256
  slices_S8x16x128_o0_6_0_S8x1x128 : S8x16x128.Slices ![0, 6, 0] S8x1x128
  slices_S8x144x256_o0_7_0_S8x128x256 : S8x144x256.Slices ![0, 7, 0] S8x128x256
  slices_S8x16x128_o0_7_0_S8x1x128 : S8x16x128.Slices ![0, 7, 0] S8x1x128
  slices_S8x144x256_o0_9_0_S8x128x256 : S8x144x256.Slices ![0, 9, 0] S8x128x256
  slices_S8x16x128_o0_8_0_S8x1x128 : S8x16x128.Slices ![0, 8, 0] S8x1x128
  slices_S8x144x256_o0_10_0_S8x128x256 : S8x144x256.Slices ![0, 10, 0] S8x128x256
  slices_S8x16x128_o0_9_0_S8x1x128 : S8x16x128.Slices ![0, 9, 0] S8x1x128
  slices_S8x144x256_o0_11_0_S8x128x256 : S8x144x256.Slices ![0, 11, 0] S8x128x256
  slices_S8x16x128_o0_10_0_S8x1x128 : S8x16x128.Slices ![0, 10, 0] S8x1x128
  slices_S8x144x256_o0_12_0_S8x128x256 : S8x144x256.Slices ![0, 12, 0] S8x128x256
  slices_S8x16x128_o0_11_0_S8x1x128 : S8x16x128.Slices ![0, 11, 0] S8x1x128
  slices_S8x144x256_o0_13_0_S8x128x256 : S8x144x256.Slices ![0, 13, 0] S8x128x256
  slices_S8x16x128_o0_12_0_S8x1x128 : S8x16x128.Slices ![0, 12, 0] S8x1x128
  slices_S8x144x256_o0_14_0_S8x128x256 : S8x144x256.Slices ![0, 14, 0] S8x128x256
  slices_S8x16x128_o0_13_0_S8x1x128 : S8x16x128.Slices ![0, 13, 0] S8x1x128
  slices_S8x144x256_o0_15_0_S8x128x256 : S8x144x256.Slices ![0, 15, 0] S8x128x256
  slices_S8x16x128_o0_14_0_S8x1x128 : S8x16x128.Slices ![0, 14, 0] S8x1x128
  slices_S8x144x256_o0_16_0_S8x128x256 : S8x144x256.Slices ![0, 16, 0] S8x128x256
  slices_S8x16x128_o0_15_0_S8x1x128 : S8x16x128.Slices ![0, 15, 0] S8x1x128
  reduces_S8x128x256_S8x256 : S8x128x256.Reduces [1] S8x256
  inb_S8x2064x256_S8x144x256_0_128_0 : ∀ a, (![0, 128, 0] : Fin 3 → Nat) a + S8x144x256.size a ≤ S8x2064x256.size a
  inb_S8x16x2048_S8x16x128_0_0_128 : ∀ a, (![0, 0, 128] : Fin 3 → Nat) a + S8x16x128.size a ≤ S8x16x2048.size a
  inb_S8x2048_S8x128_0_128 : ∀ a, (![0, 128] : Fin 2 → Nat) a + S8x128.size a ≤ S8x2048.size a
  inb_S8x2064x256_S8x144x256_0_256_0 : ∀ a, (![0, 256, 0] : Fin 3 → Nat) a + S8x144x256.size a ≤ S8x2064x256.size a
  inb_S8x16x2048_S8x16x128_0_0_256 : ∀ a, (![0, 0, 256] : Fin 3 → Nat) a + S8x16x128.size a ≤ S8x16x2048.size a
  inb_S8x2048_S8x128_0_256 : ∀ a, (![0, 256] : Fin 2 → Nat) a + S8x128.size a ≤ S8x2048.size a
  inb_S8x2064x256_S8x144x256_0_384_0 : ∀ a, (![0, 384, 0] : Fin 3 → Nat) a + S8x144x256.size a ≤ S8x2064x256.size a
  inb_S8x16x2048_S8x16x128_0_0_384 : ∀ a, (![0, 0, 384] : Fin 3 → Nat) a + S8x16x128.size a ≤ S8x16x2048.size a
  inb_S8x2048_S8x128_0_384 : ∀ a, (![0, 384] : Fin 2 → Nat) a + S8x128.size a ≤ S8x2048.size a
  inb_S8x2064x256_S8x144x256_0_512_0 : ∀ a, (![0, 512, 0] : Fin 3 → Nat) a + S8x144x256.size a ≤ S8x2064x256.size a
  inb_S8x16x2048_S8x16x128_0_0_512 : ∀ a, (![0, 0, 512] : Fin 3 → Nat) a + S8x16x128.size a ≤ S8x16x2048.size a
  inb_S8x2048_S8x128_0_512 : ∀ a, (![0, 512] : Fin 2 → Nat) a + S8x128.size a ≤ S8x2048.size a
  inb_S8x2064x256_S8x144x256_0_640_0 : ∀ a, (![0, 640, 0] : Fin 3 → Nat) a + S8x144x256.size a ≤ S8x2064x256.size a
  inb_S8x16x2048_S8x16x128_0_0_640 : ∀ a, (![0, 0, 640] : Fin 3 → Nat) a + S8x16x128.size a ≤ S8x16x2048.size a
  inb_S8x2048_S8x128_0_640 : ∀ a, (![0, 640] : Fin 2 → Nat) a + S8x128.size a ≤ S8x2048.size a
  inb_S8x2064x256_S8x144x256_0_768_0 : ∀ a, (![0, 768, 0] : Fin 3 → Nat) a + S8x144x256.size a ≤ S8x2064x256.size a
  inb_S8x16x2048_S8x16x128_0_0_768 : ∀ a, (![0, 0, 768] : Fin 3 → Nat) a + S8x16x128.size a ≤ S8x16x2048.size a
  inb_S8x2048_S8x128_0_768 : ∀ a, (![0, 768] : Fin 2 → Nat) a + S8x128.size a ≤ S8x2048.size a
  inb_S8x2064x256_S8x144x256_0_896_0 : ∀ a, (![0, 896, 0] : Fin 3 → Nat) a + S8x144x256.size a ≤ S8x2064x256.size a
  inb_S8x16x2048_S8x16x128_0_0_896 : ∀ a, (![0, 0, 896] : Fin 3 → Nat) a + S8x16x128.size a ≤ S8x16x2048.size a
  inb_S8x2048_S8x128_0_896 : ∀ a, (![0, 896] : Fin 2 → Nat) a + S8x128.size a ≤ S8x2048.size a
  inb_S8x2064x256_S8x144x256_0_1024_0 : ∀ a, (![0, 1024, 0] : Fin 3 → Nat) a + S8x144x256.size a ≤ S8x2064x256.size a
  inb_S8x16x2048_S8x16x128_0_0_1024 : ∀ a, (![0, 0, 1024] : Fin 3 → Nat) a + S8x16x128.size a ≤ S8x16x2048.size a
  inb_S8x2048_S8x128_0_1024 : ∀ a, (![0, 1024] : Fin 2 → Nat) a + S8x128.size a ≤ S8x2048.size a
  inb_S8x2064x256_S8x144x256_0_1152_0 : ∀ a, (![0, 1152, 0] : Fin 3 → Nat) a + S8x144x256.size a ≤ S8x2064x256.size a
  inb_S8x16x2048_S8x16x128_0_0_1152 : ∀ a, (![0, 0, 1152] : Fin 3 → Nat) a + S8x16x128.size a ≤ S8x16x2048.size a
  inb_S8x2048_S8x128_0_1152 : ∀ a, (![0, 1152] : Fin 2 → Nat) a + S8x128.size a ≤ S8x2048.size a
  inb_S8x2064x256_S8x144x256_0_1280_0 : ∀ a, (![0, 1280, 0] : Fin 3 → Nat) a + S8x144x256.size a ≤ S8x2064x256.size a
  inb_S8x16x2048_S8x16x128_0_0_1280 : ∀ a, (![0, 0, 1280] : Fin 3 → Nat) a + S8x16x128.size a ≤ S8x16x2048.size a
  inb_S8x2048_S8x128_0_1280 : ∀ a, (![0, 1280] : Fin 2 → Nat) a + S8x128.size a ≤ S8x2048.size a
  inb_S8x2064x256_S8x144x256_0_1408_0 : ∀ a, (![0, 1408, 0] : Fin 3 → Nat) a + S8x144x256.size a ≤ S8x2064x256.size a
  inb_S8x16x2048_S8x16x128_0_0_1408 : ∀ a, (![0, 0, 1408] : Fin 3 → Nat) a + S8x16x128.size a ≤ S8x16x2048.size a
  inb_S8x2048_S8x128_0_1408 : ∀ a, (![0, 1408] : Fin 2 → Nat) a + S8x128.size a ≤ S8x2048.size a
  inb_S8x2064x256_S8x144x256_0_1536_0 : ∀ a, (![0, 1536, 0] : Fin 3 → Nat) a + S8x144x256.size a ≤ S8x2064x256.size a
  inb_S8x16x2048_S8x16x128_0_0_1536 : ∀ a, (![0, 0, 1536] : Fin 3 → Nat) a + S8x16x128.size a ≤ S8x16x2048.size a
  inb_S8x2048_S8x128_0_1536 : ∀ a, (![0, 1536] : Fin 2 → Nat) a + S8x128.size a ≤ S8x2048.size a
  inb_S8x2064x256_S8x144x256_0_1664_0 : ∀ a, (![0, 1664, 0] : Fin 3 → Nat) a + S8x144x256.size a ≤ S8x2064x256.size a
  inb_S8x16x2048_S8x16x128_0_0_1664 : ∀ a, (![0, 0, 1664] : Fin 3 → Nat) a + S8x16x128.size a ≤ S8x16x2048.size a
  inb_S8x2048_S8x128_0_1664 : ∀ a, (![0, 1664] : Fin 2 → Nat) a + S8x128.size a ≤ S8x2048.size a
  inb_S8x2064x256_S8x144x256_0_1792_0 : ∀ a, (![0, 1792, 0] : Fin 3 → Nat) a + S8x144x256.size a ≤ S8x2064x256.size a
  inb_S8x16x2048_S8x16x128_0_0_1792 : ∀ a, (![0, 0, 1792] : Fin 3 → Nat) a + S8x16x128.size a ≤ S8x16x2048.size a
  inb_S8x2048_S8x128_0_1792 : ∀ a, (![0, 1792] : Fin 2 → Nat) a + S8x128.size a ≤ S8x2048.size a
  inb_S8x2064x256_S8x144x256_0_1920_0 : ∀ a, (![0, 1920, 0] : Fin 3 → Nat) a + S8x144x256.size a ≤ S8x2064x256.size a
  inb_S8x16x2048_S8x16x128_0_0_1920 : ∀ a, (![0, 0, 1920] : Fin 3 → Nat) a + S8x16x128.size a ≤ S8x16x2048.size a
  inb_S8x2048_S8x128_0_1920 : ∀ a, (![0, 1920] : Fin 2 → Nat) a + S8x128.size a ≤ S8x2048.size a
  inb_S8x256_S8x256_0_0 : ∀ a, (![0, 0] : Fin 2 → Nat) a + S8x256.size a ≤ S8x256.size a
  h_S8x256 : 0 < S8x256.numel
  gather_S16x2064_S2048x16x1_S16x2048x16_0_1_n_n_1_2_161_wf : GatherDims.WF S16x2064 S2048x16x1 S16x2048x16 [0] [1] [] [1] [] 2 ![16, 1]
  gather_S64000001x1_S16x2048x16x1_S16x2048x16x1_3_0_n_n_0_3_11_wf : GatherDims.WF S64000001x1 S16x2048x16x1 S16x2048x16x1 [3] [0] [] [0] [] 3 ![1, 1]
  gather_S8000x256_S16x2048x1_S16x2048x256_2_0_n_n_0_2_1256_wf : GatherDims.WF S8000x256 S16x2048x1 S16x2048x256 [2] [0] [] [0] [] 2 ![1, 256]
  gather_S8000x1_S16x2048x1_S16x2048x1_2_0_n_n_0_2_11_wf : GatherDims.WF S8000x1 S16x2048x1 S16x2048x1 [2] [0] [] [0] [] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2064x256.size a ≤ S16x2064x256.size a
  hwx0_0 : ∀ i : grid0.Coords, EltTy.bits .f32 = 32 ∨ (Rect.block (s := S16x2064x256) S8x2064x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16x2048.size a ≤ S16x16x2048.size a
  hwx0_1 : ∀ i : grid0.Coords, EltTy.bits .f32 = 32 ∨ (Rect.block (s := S16x16x2048) S8x16x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S16x2048.size a
  hwx0_2 : ∀ i : grid0.Coords, EltTy.bits .f32 = 32 ∨ (Rect.block (s := S16x2048) S8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S16x256.size a
  hwx0_3 : ∀ i : grid0.Coords, EltTy.bits .f32 = 32 ∨ (Rect.block (s := S16x256) S8x256.size (cc0_transform_3 i) (hinb0_3 i)).WholeWords (EltTy.packing .f32)

variable [Facts₀]

def gather_S16x2064_S2048x16x1_S16x2048x16_0_1_n_n_1_2_161 : GatherDims S16x2064 S2048x16x1 S16x2048x16 where
  offsetDims := [0]
  collapsedSliceDims := [1]
  operandBatchingDims := []
  startIndicesBatchingDims := []
  startIndexMap := [1]
  indexVectorDim := 2
  sliceSizes := ![16, 1]
  wf := gather_S16x2064_S2048x16x1_S16x2048x16_0_1_n_n_1_2_161_wf
def gather_S64000001x1_S16x2048x16x1_S16x2048x16x1_3_0_n_n_0_3_11 : GatherDims S64000001x1 S16x2048x16x1 S16x2048x16x1 where
  offsetDims := [3]
  collapsedSliceDims := [0]
  operandBatchingDims := []
  startIndicesBatchingDims := []
  startIndexMap := [0]
  indexVectorDim := 3
  sliceSizes := ![1, 1]
  wf := gather_S64000001x1_S16x2048x16x1_S16x2048x16x1_3_0_n_n_0_3_11_wf
def gather_S8000x256_S16x2048x1_S16x2048x256_2_0_n_n_0_2_1256 : GatherDims S8000x256 S16x2048x1 S16x2048x256 where
  offsetDims := [2]
  collapsedSliceDims := [0]
  operandBatchingDims := []
  startIndicesBatchingDims := []
  startIndexMap := [0]
  indexVectorDim := 2
  sliceSizes := ![1, 256]
  wf := gather_S8000x256_S16x2048x1_S16x2048x256_2_0_n_n_0_2_1256_wf
def gather_S8000x1_S16x2048x1_S16x2048x1_2_0_n_n_0_2_11 : GatherDims S8000x1 S16x2048x1 S16x2048x1 where
  offsetDims := [2]
  collapsedSliceDims := [0]
  operandBatchingDims := []
  startIndicesBatchingDims := []
  startIndexMap := [0]
  indexVectorDim := 2
  sliceSizes := ![1, 1]
  wf := gather_S8000x1_S16x2048x1_S16x2048x1_2_0_n_n_0_2_11_wf

abbrev win0_0 : Pipeline.Window sig grid0 :=
  Pipeline.Window.ofSpec (Memref.whole main_v43) S8x2064x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S8x16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S8x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v52) S8x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048 : Shape := ⟨2, ![16, 2048]⟩
abbrev S8000x256 : Shape := ⟨2, ![8000, 256]⟩
abbrev S64000001x1 : Shape := ⟨2, ![64000001, 1]⟩
abbrev S8000x1 : Shape := ⟨2, ![8000, 1]⟩
abbrev S_ : Shape := ⟨0, ![]⟩
abbrev S16x2064 : Shape := ⟨2, ![16, 2064]⟩
abbrev S8 : Shape := ⟨1, ![8]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x16x1 : Shape := ⟨3, ![2048, 16, 1]⟩
abbrev S16x2048x16 : Shape := ⟨3, ![16, 2048, 16]⟩
abbrev S16x2048x1 : Shape := ⟨3, ![16, 2048, 1]⟩
abbrev S16x2048x16x1 : Shape := ⟨4, ![16, 2048, 16, 1]⟩
abbrev S16x2048x16x256 : Shape := ⟨4, ![16, 2048, 16, 256]⟩
abbrev S16x2048x256 : Shape := ⟨3, ![16, 2048, 256]⟩
abbrev S16x256 : Shape := ⟨2, ![16, 256]⟩

abbrev nBuf : Space → Nat
  | .hbm => 91
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S8000x256, .f32⟩
  | .hbm, ⟨2, _⟩ => ⟨S64000001x1, .f32⟩
  | .hbm, ⟨3, _⟩ => ⟨S8000x1, .f32⟩
  | .hbm, ⟨4, _⟩ => ⟨S_, .i32⟩
  | .hbm, ⟨5, _⟩ => ⟨S_, .i32⟩
  | .hbm, ⟨6, _⟩ => ⟨S16x2064, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S16, .i32⟩
  | .hbm, ⟨13, _⟩ => ⟨S2048, .i32⟩
  | .hbm, ⟨14, _⟩ => ⟨S2048x1, .i32⟩
  | .hbm, ⟨15, _⟩ => ⟨S1x16, .i32⟩
  | .hbm, ⟨16, _⟩ => ⟨S2048x16, .i32⟩
  | .hbm, ⟨17, _⟩ => ⟨S2048x16, .i32⟩
  | .hbm, ⟨18, _⟩ => ⟨S2048x16, .i32⟩
  | .hbm, ⟨19, _⟩ => ⟨S_, .i32⟩
  | .hbm, ⟨20, _⟩ => ⟨S2048x16, .i32⟩
  | .hbm, ⟨21, _⟩ => ⟨S2048x16, .i1⟩
  | .hbm, ⟨22, _⟩ => ⟨S_, .i32⟩
  | .hbm, ⟨23, _⟩ => ⟨S2048x16, .i32⟩
  | .hbm, ⟨24, _⟩ => ⟨S2048x16, .i32⟩
  | .hbm, ⟨25, _⟩ => ⟨S2048x16, .i32⟩
  | .hbm, ⟨26, _⟩ => ⟨S2048x16x1, .i32⟩
  | .hbm, ⟨27, _⟩ => ⟨S16x2048x16, .i32⟩
  | .hbm, ⟨28, _⟩ => ⟨S16x2048x1, .i32⟩
  | .hbm, ⟨29, _⟩ => ⟨S_, .i32⟩
  | .hbm, ⟨30, _⟩ => ⟨S16x2048x1, .i32⟩
  | .hbm, ⟨31, _⟩ => ⟨S16x2048x1, .i32⟩
  | .hbm, ⟨32, _⟩ => ⟨S16x2048x16, .i32⟩
  | .hbm, ⟨33, _⟩ => ⟨S16x2048x16, .i32⟩
  | .hbm, ⟨34, _⟩ => ⟨S_, .i32⟩
  | .hbm, ⟨35, _⟩ => ⟨S16x2048x16, .i32⟩
  | .hbm, ⟨36, _⟩ => ⟨S16x2048x16, .i1⟩
  | .hbm, ⟨37, _⟩ => ⟨S_, .i32⟩
  | .hbm, ⟨38, _⟩ => ⟨S_, .i32⟩
  | .hbm, ⟨39, _⟩ => ⟨S16x2048x16, .i32⟩
  | .hbm, ⟨40, _⟩ => ⟨S16x2048x16, .i32⟩
  | .hbm, ⟨41, _⟩ => ⟨S_, .i32⟩
  | .hbm, ⟨42, _⟩ => ⟨S16x2048x16, .i32⟩
  | .hbm, ⟨43, _⟩ => ⟨S16x2048x16, .i1⟩
  | .hbm, ⟨44, _⟩ => ⟨S_, .i32⟩
  | .hbm, ⟨45, _⟩ => ⟨S16x2048x16, .i32⟩
  | .hbm, ⟨46, _⟩ => ⟨S16x2048x16, .i32⟩
  | .hbm, ⟨47, _⟩ => ⟨S16x2048x16, .i32⟩
  | .hbm, ⟨48, _⟩ => ⟨S16x2048x16x1, .i32⟩
  | .hbm, ⟨49, _⟩ => ⟨S16x2048x16x256, .f32⟩
  | .hbm, ⟨50, _⟩ => ⟨S_, .i32⟩
  | .hbm, ⟨51, _⟩ => ⟨S16x2048x16, .i32⟩
  | .hbm, ⟨52, _⟩ => ⟨S16x2048x16, .i1⟩
  | .hbm, ⟨53, _⟩ => ⟨S_, .i32⟩
  | .hbm, ⟨54, _⟩ => ⟨S16x2048x16, .i32⟩
  | .hbm, ⟨55, _⟩ => ⟨S16x2048x16, .i32⟩
  | .hbm, ⟨56, _⟩ => ⟨S16x2048x16, .i32⟩
  | .hbm, ⟨57, _⟩ => ⟨S16x2048x16x1, .i32⟩
  | .hbm, ⟨58, _⟩ => ⟨S16x2048x16x1, .f32⟩
  | .hbm, ⟨59, _⟩ => ⟨S16x2048x16x256, .f32⟩
  | .hbm, ⟨60, _⟩ => ⟨S16x2048x16x256, .f32⟩
  | .hbm, ⟨61, _⟩ => ⟨S_, .f32⟩
  | .hbm, ⟨62, _⟩ => ⟨S16x2048x256, .f32⟩
  | .hbm, ⟨63, _⟩ => ⟨S_, .i32⟩
  | .hbm, ⟨64, _⟩ => ⟨S16x2048, .i32⟩
  | .hbm, ⟨65, _⟩ => ⟨S16x2048, .i1⟩
  | .hbm, ⟨66, _⟩ => ⟨S_, .i32⟩
  | .hbm, ⟨67, _⟩ => ⟨S16x2048, .i32⟩
  | .hbm, ⟨68, _⟩ => ⟨S16x2048, .i32⟩
  | .hbm, ⟨69, _⟩ => ⟨S16x2048, .i32⟩
  | .hbm, ⟨70, _⟩ => ⟨S16x2048x1, .i32⟩
  | .hbm, ⟨71, _⟩ => ⟨S16x2048x256, .f32⟩
  | .hbm, ⟨72, _⟩ => ⟨S_, .i32⟩
  | .hbm, ⟨73, _⟩ => ⟨S16x2048, .i32⟩
  | .hbm, ⟨74, _⟩ => ⟨S16x2048, .i1⟩
  | .hbm, ⟨75, _⟩ => ⟨S_, .i32⟩
  | .hbm, ⟨76, _⟩ => ⟨S16x2048, .i32⟩
  | .hbm, ⟨77, _⟩ => ⟨S16x2048, .i32⟩
  | .hbm, ⟨78, _⟩ => ⟨S16x2048, .i32⟩
  | .hbm, ⟨79, _⟩ => ⟨S16x2048x1, .i32⟩
  | .hbm, ⟨80, _⟩ => ⟨S16x2048x1, .f32⟩
  | .hbm, ⟨81, _⟩ => ⟨S_, .f32⟩
  | .hbm, ⟨82, _⟩ => ⟨S16x2048x1, .f32⟩
  | .hbm, ⟨83, _⟩ => ⟨S16x2048x1, .f32⟩
  | .hbm, ⟨84, _⟩ => ⟨S16x2048x256, .f32⟩
  | .hbm, ⟨85, _⟩ => ⟨S16x2048x256, .f32⟩
  | .hbm, ⟨86, _⟩ => ⟨S16x2048x256, .f32⟩
  | .hbm, ⟨87, _⟩ => ⟨S16x2048x256, .f32⟩
  | .hbm, ⟨88, _⟩ => ⟨S16x2048x256, .f32⟩
  | .hbm, ⟨89, _⟩ => ⟨S_, .f32⟩
  | .hbm, ⟨90, _⟩ => ⟨S16x256, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_call1_v0 : Ref sig .tc := ⟨.hbm, 38, rfl⟩
abbrev main_call1_v1 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_c_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_c_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_12 : Ref sig .tc := ⟨.hbm, 72, rfl⟩
abbrev main_v51 : Ref sig .tc := ⟨.hbm, 73, rfl⟩
abbrev main_v52 : Ref sig .tc := ⟨.hbm, 74, rfl⟩
abbrev main_c_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_14 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  pads_S16x2048_S16x2064_000_880 : S16x2048.Pads (![0, 8] : Fin 2 → Nat) ![0, 8] ![0, 0] S16x2064
  h_S_ : 0 < S_.numel
  bcast_S_S8 : S_.BroadcastsInDim S8 (![] : Fin 0 → Fin S8.rank)
  concatenates_S8_S8_S16_d0 : Shape.Concatenates [S8, S8] S16 0
  bcast_S2048_S2048x1_0 : S2048.BroadcastsInDim S2048x1 (![0] : Fin 1 → Fin S2048x1.rank)
  bcast_S16_S1x16_1 : S16.BroadcastsInDim S1x16 (![1] : Fin 1 → Fin S1x16.rank)
  bcast_S2048x1_S2048x16_0_1 : S2048x1.BroadcastsInDim S2048x16 (![0, 1] : Fin 2 → Fin S2048x16.rank)
  bcast_S1x16_S2048x16_0_1 : S1x16.BroadcastsInDim S2048x16 (![0, 1] : Fin 2 → Fin S2048x16.rank)
  bcast_S_S2048x16 : S_.BroadcastsInDim S2048x16 (![] : Fin 0 → Fin S2048x16.rank)
  bcast_S2048x16_S2048x16x1_0_1 : S2048x16.BroadcastsInDim S2048x16x1 (![0, 1] : Fin 2 → Fin S2048x16x1.rank)
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x16_0_1_2 : S16x2048x1.BroadcastsInDim S16x2048x16 (![0, 1, 2] : Fin 3 → Fin S16x2048x16.rank)
  bcast_S_S16x2048x16 : S_.BroadcastsInDim S16x2048x16 (![] : Fin 0 → Fin S16x2048x16.rank)
  bcast_S16x2048x16_S16x2048x16x1_0_1_2 : S16x2048x16.BroadcastsInDim S16x2048x16x1 (![0, 1, 2] : Fin 3 → Fin S16x2048x16x1.rank)
  bcast_S16x2048x16x1_S16x2048x16x256_0_1_2_3 : S16x2048x16x1.BroadcastsInDim S16x2048x16x256 (![0, 1, 2, 3] : Fin 4 → Fin S16x2048x16x256.rank)
  reducesTo_S16x2048x16x256_S16x2048x256_d2 : S16x2048x16x256.ReducesTo [2] S16x2048x256
  bcast_S_S16x2048 : S_.BroadcastsInDim S16x2048 (![] : Fin 0 → Fin S16x2048.rank)
  bcast_S16x2048x1_S16x2048x256_0_1_2 : S16x2048x1.BroadcastsInDim S16x2048x256 (![0, 1, 2] : Fin 3 → Fin S16x2048x256.rank)
  reducesTo_S16x2048x256_S16x256_d1 : S16x2048x256.ReducesTo [1] S16x256
  gather_S16x2064_S2048x16x1_S16x2048x16_0_1_n_n_1_2_161_wf : GatherDims.WF S16x2064 S2048x16x1 S16x2048x16 [0] [1] [] [1] [] 2 ![16, 1]
  gather_S8000x256_S16x2048x16x1_S16x2048x16x256_3_0_n_n_0_3_1256_wf : GatherDims.WF S8000x256 S16x2048x16x1 S16x2048x16x256 [3] [0] [] [0] [] 3 ![1, 256]
  gather_S64000001x1_S16x2048x16x1_S16x2048x16x1_3_0_n_n_0_3_11_wf : GatherDims.WF S64000001x1 S16x2048x16x1 S16x2048x16x1 [3] [0] [] [0] [] 3 ![1, 1]
  gather_S8000x256_S16x2048x1_S16x2048x256_2_0_n_n_0_2_1256_wf : GatherDims.WF S8000x256 S16x2048x1 S16x2048x256 [2] [0] [] [0] [] 2 ![1, 256]
  gather_S8000x1_S16x2048x1_S16x2048x1_2_0_n_n_0_2_11_wf : GatherDims.WF S8000x1 S16x2048x1 S16x2048x1 [2] [0] [] [0] [] 2 ![1, 1]

variable [Facts₀]

def gather_S16x2064_S2048x16x1_S16x2048x16_0_1_n_n_1_2_161 : GatherDims S16x2064 S2048x16x1 S16x2048x16 where
  offsetDims := [0]
  collapsedSliceDims := [1]
  operandBatchingDims := []
  startIndicesBatchingDims := []
  startIndexMap := [1]
  indexVectorDim := 2
  sliceSizes := ![16, 1]
  wf := gather_S16x2064_S2048x16x1_S16x2048x16_0_1_n_n_1_2_161_wf
def gather_S8000x256_S16x2048x16x1_S16x2048x16x256_3_0_n_n_0_3_1256 : GatherDims S8000x256 S16x2048x16x1 S16x2048x16x256 where
  offsetDims := [3]
  collapsedSliceDims := [0]
  operandBatchingDims := []
  startIndicesBatchingDims := []
  startIndexMap := [0]
  indexVectorDim := 3
  sliceSizes := ![1, 256]
  wf := gather_S8000x256_S16x2048x16x1_S16x2048x16x256_3_0_n_n_0_3_1256_wf
def gather_S64000001x1_S16x2048x16x1_S16x2048x16x1_3_0_n_n_0_3_11 : GatherDims S64000001x1 S16x2048x16x1 S16x2048x16x1 where
  offsetDims := [3]
  collapsedSliceDims := [0]
  operandBatchingDims := []
  startIndicesBatchingDims := []
  startIndexMap := [0]
  indexVectorDim := 3
  sliceSizes := ![1, 1]
  wf := gather_S64000001x1_S16x2048x16x1_S16x2048x16x1_3_0_n_n_0_3_11_wf
def gather_S8000x256_S16x2048x1_S16x2048x256_2_0_n_n_0_2_1256 : GatherDims S8000x256 S16x2048x1 S16x2048x256 where
  offsetDims := [2]
  collapsedSliceDims := [0]
  operandBatchingDims := []
  startIndicesBatchingDims := []
  startIndexMap := [0]
  indexVectorDim := 2
  sliceSizes := ![1, 256]
  wf := gather_S8000x256_S16x2048x1_S16x2048x256_2_0_n_n_0_2_1256_wf
def gather_S8000x1_S16x2048x1_S16x2048x1_2_0_n_n_0_2_11 : GatherDims S8000x1 S16x2048x1 S16x2048x1 where
  offsetDims := [2]
  collapsedSliceDims := [0]
  operandBatchingDims := []
  startIndicesBatchingDims := []
  startIndexMap := [0]
  indexVectorDim := 2
  sliceSizes := ![1, 1]
  wf := gather_S8000x1_S16x2048x1_S16x2048x1_2_0_n_n_0_2_11_wf

class Facts : Prop extends Facts₀ where

variable [Facts]
-- ==== Proof.Spec.lean ====
/-
  What both programs compute, as one function of three gathered arrays.

  For a batch row `b`, a position `l` of the sequence and a feature `d`, write `Rn b l d` for the embedding of the
  token at `l`, `Ea b l j` for the weight of the edge from the token at `l` to its `j`-th neighbour, and `Nn b l` for the
  token's gate. The sixteen neighbours of `l` are the eight positions before it and the eight after it; a neighbour
  that falls off either end of the sequence contributes the zero vector. The result at `(b, d)` is

      ∑ l, (1 − Nn b l) · max_j (nb b l j d · Ea b l j) + Nn b l · Rn b l d

  on the extended reals, the maximum over the sixteen neighbours taken from −∞.
-/
import Idealize.ShloMosaic.PureOps.Ideal
import Idealize.ShloMosaic.Lib.ValueIdx

noncomputable section

open scoped BigOperators

namespace Cert.Spec

open Idealize.ShloMosaic Idealize.ShloMosaic.ValueIdx

/-- Token embeddings, [batch, position, feature]. -/
abbrev SRn : Shape := ⟨3, ![16, 2048, 256]⟩
/-- Edge weights, [batch, position, neighbour, 1]. -/
abbrev SEa : Shape := ⟨4, ![16, 2048, 16, 1]⟩
/-- Gates, [batch, position, 1]. -/
abbrev SNn : Shape := ⟨3, ![16, 2048, 1]⟩
/-- The result, [batch, feature]. -/
abbrev SOut : Shape := ⟨2, ![16, 256]⟩

/-- On the axis padded by eight places at each end, neighbour `j` of position `l` sits at `l + off j`: the eight places
    before the token's own (which is `l + 8`) and the eight after it. -/
def off (j : Fin 16) : Nat := if j.val < 8 then j.val else j.val + 1

theorem off_lt (j : Fin 16) : off j < 17 := by unfold off; split <;> omega

/-- The `j`-th neighbour's embedding: the token's at `l + off j − 8` when that position exists, else zero. -/
def nb (Rn : SRn.Idx → EReal) (b : Fin 16) (l : Fin 2048) (j : Fin 16) (d : Fin 256) : EReal :=
  if h : 8 ≤ l.val + off j ∧ l.val + off j < 2056 then Rn (ix3 b ⟨l.val + off j - 8, by omega⟩ d) else 0

/-- The largest of the sixteen weighted neighbour embeddings, from −∞. -/
def best (Rn : SRn.Idx → EReal) (Ea : SEa.Idx → EReal) (b : Fin 16) (l : Fin 2048) (d : Fin 256) : EReal :=
  (Finset.univ : Finset (Fin 16)).fold max ⊥ (fun j => nb Rn b l j d * Ea (ix4 b l j (0 : Fin 1)))

/-- One position's gated blend of its best neighbour and itself. -/
def term (Rn : SRn.Idx → EReal) (Ea : SEa.Idx → EReal) (Nn : SNn.Idx → EReal) (b : Fin 16) (d : Fin 256) (l : Fin 2048) : EReal :=
  (Ideal.ofBits .f32 0x3F800000#32 - Nn (ix3 b l (0 : Fin 1))) * best Rn Ea b l d + Nn (ix3 b l (0 : Fin 1)) * Rn (ix3 b l d)

/-- The result: the blends summed over the sequence. -/
def G (Rn : SRn.Idx → EReal) (Ea : SEa.Idx → EReal) (Nn : SNn.Idx → EReal) : SOut.Idx → EReal :=
  fun i => ∑ l : Fin 2048, term Rn Ea Nn (i 0) (i 1) l

end Cert.Spec

end
-- ==== Proof.KernelSpec.lean ====
/-
  The kernel's result as one function of the three arrays its grid stages.

  The grid stages the zero-padded token embeddings `A0` [16, 2064, 256] (row `p` of the padded axis is position `p − 8`),
  the edge weights `A1` [16, 16, 2048] laid out neighbour-major, and the gates `A2` [16, 2048]. For batch row `B` and
  feature `d` every position `l` contributes its gated blend of the largest weighted neighbour row and its own row,
  and the result is the sum of the contributions.
-/
import proofs.«121150_j77670188581209_2_alg».proof.KernelIdeal
import proofs.«121150_j77670188581209_2_alg».proof.Proof.Spec
import Idealize.ShloMosaic.Lib.ValueIdx

noncomputable section

open scoped BigOperators

namespace Cert.KernelValue

open Idealize.ShloMosaic Idealize.ShloMosaic.ValueIdx Cert.KernelIdeal

/-- One position's gated blend over the whole staged arrays. -/
def arrTerm (A0 : S16x2064x256.Idx → EReal) (A1 : S16x16x2048.Idx → EReal) (A2 : S16x2048.Idx → EReal)
    (B : Fin 16) (d : Fin 256) (l : Fin 2048) : EReal :=
  (Ideal.ofBits .f32 0x3F800000#32 - A2 (ix2 B l))
      * (Finset.univ : Finset (Fin 16)).fold max ⊥
          (fun j => A0 (ix3 B ⟨l.val + Cert.Spec.off j, by have := Cert.Spec.off_lt j; omega⟩ d) * A1 (ix3 B j l))
    + A2 (ix2 B l) * A0 (ix3 B ⟨l.val + 8, by omega⟩ d)

/-- The kernel's result array: the blends summed over the sequence. -/
def Gk (A0 : S16x2064x256.Idx → EReal) (A1 : S16x16x2048.Idx → EReal) (A2 : S16x2048.Idx → EReal) : S16x256.Idx → EReal :=
  fun i => ∑ l : Fin 2048, arrTerm A0 A1 A2 (i 0) (i 1) l

end Cert.KernelValue

end
-- ==== Proof.Chunk.lean ====
/-
  The kernel body, one stretch of the sequence at a time.

  The body walks its block of 2048 positions in sixteen stretches of 128. For a stretch it loads 144 rows of the padded
  embeddings (the 128 positions and eight more on either side), the sixteen rows of edge weights and the row of gates;
  forms, for each of the sixteen neighbour offsets, the product of the embeddings shifted by that offset with the edge
  weights of that neighbour; takes the largest product; blends it with the unshifted embeddings by the gate; sums the
  blend over the 128 positions and adds the sum to a running total that starts at zero. `chunk` is that one step as a
  function of the running total and the three loaded values, and the block the body leaves is sixteen nested steps.
-/
import proofs.«121150_j77670188581209_2_alg».proof.Proof.Gen.KernelIdeal.Frame

noncomputable section

namespace Cert.Body

open Idealize.ShloMosaic Cert.KernelIdeal Cert.KernelIdeal.Gen

variable {F : FTy → Type} [FloatOps F]

/-- One neighbour's product: 128 rows of the embeddings starting `o` rows into the stretch's 144, times that neighbour's
    row of edge weights, the weight of position `r` spread along the features. -/
def prod (o : Fin 3 → Nat) (j : Fin 3 → Nat) (ho : S8x144x256.Slices o S8x128x256) (hj : S8x16x128.Slices j S8x1x128)
    (v2 : FVec F S8x144x256 .f32) (v4 : FVec F S8x16x128 .f32) : FVec F S8x128x256 .f32 :=
  mulf (extractStridedSlice S8x128x256 o v2 ho)
    (broadcastTo S8x128x256 (shapeCast S8x128x1 (shapeCast S8x128 (extractStridedSlice S8x1x128 j v4 hj)
      shapeCasts_S8x1x128_S8x128) shapeCasts_S8x128_S8x128x1) broadcasts_S8x128x1_S8x128x256)

/-- The largest of the sixteen neighbour products of a stretch, the offsets 0 … 7 and 9 … 16 (offset 8 is the
    position itself). -/
def bestProd (v2 : FVec F S8x144x256 .f32) (v4 : FVec F S8x16x128 .f32) : FVec F S8x128x256 .f32 :=
  (maximumf (maximumf (maximumf (maximumf (maximumf (maximumf (maximumf (maximumf (maximumf (maximumf (maximumf (maximumf (maximumf (maximumf (maximumf (prod ![0, 0, 0] ![0, 0, 0] slices_S8x144x256_o0_0_0_S8x128x256 slices_S8x16x128_o0_0_0_S8x1x128 v2 v4)
      (prod ![0, 1, 0] ![0, 1, 0] slices_S8x144x256_o0_1_0_S8x128x256 slices_S8x16x128_o0_1_0_S8x1x128 v2 v4))
      (prod ![0, 2, 0] ![0, 2, 0] slices_S8x144x256_o0_2_0_S8x128x256 slices_S8x16x128_o0_2_0_S8x1x128 v2 v4))
      (prod ![0, 3, 0] ![0, 3, 0] slices_S8x144x256_o0_3_0_S8x128x256 slices_S8x16x128_o0_3_0_S8x1x128 v2 v4))
      (prod ![0, 4, 0] ![0, 4, 0] slices_S8x144x256_o0_4_0_S8x128x256 slices_S8x16x128_o0_4_0_S8x1x128 v2 v4))
      (prod ![0, 5, 0] ![0, 5, 0] slices_S8x144x256_o0_5_0_S8x128x256 slices_S8x16x128_o0_5_0_S8x1x128 v2 v4))
      (prod ![0, 6, 0] ![0, 6, 0] slices_S8x144x256_o0_6_0_S8x128x256 slices_S8x16x128_o0_6_0_S8x1x128 v2 v4))
      (prod ![0, 7, 0] ![0, 7, 0] slices_S8x144x256_o0_7_0_S8x128x256 slices_S8x16x128_o0_7_0_S8x1x128 v2 v4))
      (prod ![0, 9, 0] ![0, 8, 0] slices_S8x144x256_o0_9_0_S8x128x256 slices_S8x16x128_o0_8_0_S8x1x128 v2 v4))
      (prod ![0, 10, 0] ![0, 9, 0] slices_S8x144x256_o0_10_0_S8x128x256 slices_S8x16x128_o0_9_0_S8x1x128 v2 v4))
      (prod ![0, 11, 0] ![0, 10, 0] slices_S8x144x256_o0_11_0_S8x128x256 slices_S8x16x128_o0_10_0_S8x1x128 v2 v4))
      (prod ![0, 12, 0] ![0, 11, 0] slices_S8x144x256_o0_12_0_S8x128x256 slices_S8x16x128_o0_11_0_S8x1x128 v2 v4))
      (prod ![0, 13, 0] ![0, 12, 0] slices_S8x144x256_o0_13_0_S8x128x256 slices_S8x16x128_o0_12_0_S8x1x128 v2 v4))
      (prod ![0, 14, 0] ![0, 13, 0] slices_S8x144x256_o0_14_0_S8x128x256 slices_S8x16x128_o0_13_0_S8x1x128 v2 v4))
      (prod ![0, 15, 0] ![0, 14, 0] slices_S8x144x256_o0_15_0_S8x128x256 slices_S8x16x128_o0_14_0_S8x1x128 v2 v4))
      (prod ![0, 16, 0] ![0, 15, 0] slices_S8x144x256_o0_16_0_S8x128x256 slices_S8x16x128_o0_15_0_S8x1x128 v2 v4))

/-- One stretch: the running total plus the stretch's sum of gated blends. -/
def chunk (acc : FVec F S8x256 .f32) (v1 : Vec F S8x144x256 .f32) (v3 : Vec F S8x16x128 .f32) (v5 : Vec F S8x128 .f32) :
    FVec F S8x256 .f32 :=
  have v2 : FVec F S8x144x256 .f32 := shapeCast S8x144x256 v1 shapeCasts_S8x144x256_S8x144x256
  have v4 : FVec F S8x16x128 .f32 := shapeCast S8x16x128 v3 shapeCasts_S8x16x128_S8x16x128
  have v7 : FVec F S8x128x1 .f32 := shapeCast S8x128x1 (shapeCast S8x128 v5 shapeCasts_S8x128_S8x128) shapeCasts_S8x128_S8x128x1
  have v8 : FVec F S8x128x256 .f32 := extractStridedSlice S8x128x256 ![0, 8, 0] v2 slices_S8x144x256_o0_8_0_S8x128x256
  addf acc (multiReduction .add [1] S8x256
    (addf (mulf (broadcastTo S8x128x256 (subf (broadcast S8x128x1 (Scalar.ofBits .f32 0x3F800000#32)) v7) broadcasts_S8x128x1_S8x128x256)
        (bestProd v2 v4))
      (mulf (broadcastTo S8x128x256 v7 broadcasts_S8x128x1_S8x128x256) v8))
    0x00000000#32 reduces_S8x128x256_S8x256 (.inl rfl) rfl)

/-! Each stretch's store payload, as the printed body cuts it, is that one step of what the stretch loaded. -/

theorem chunk_0 (acc : FVec F S8x256 .f32) (h : Vec F S8x144x256 .f32) (e : Vec F S8x16x128 .f32) (n : Vec F S8x128 .f32) :
    k0_pay11 acc (k0_pay3 h) (k0_pay4 e) (k0_pay5 n) (k0_pay6 h) (k0_pay8 (k0_pay3 h) (k0_pay4 e) (k0_pay7 h e)) (k0_pay9 (k0_pay3 h)) (k0_pay10 (k0_pay4 e)) = chunk acc h e n := rfl

theorem chunk_1 (acc : FVec F S8x256 .f32) (h : Vec F S8x144x256 .f32) (e : Vec F S8x16x128 .f32) (n : Vec F S8x128 .f32) :
    k0_pay20 acc (k0_pay12 h) (k0_pay13 e) (k0_pay14 n) (k0_pay15 h) (k0_pay19 (k0_pay12 h) (k0_pay13 e) (k0_pay16 h e) (k0_pay17 h) (k0_pay18 e)) = chunk acc h e n := rfl

theorem chunk_2 (acc : FVec F S8x256 .f32) (h : Vec F S8x144x256 .f32) (e : Vec F S8x16x128 .f32) (n : Vec F S8x128 .f32) :
    k0_pay30 acc (k0_pay21 h) (k0_pay22 e) (k0_pay23 n) (k0_pay24 h) (k0_pay27 (k0_pay21 h) (k0_pay22 e) (k0_pay25 h) (k0_pay26 e)) (k0_pay28 (k0_pay21 h)) (k0_pay29 (k0_pay22 e)) = chunk acc h e n := rfl

theorem chunk_3 (acc : FVec F S8x256 .f32) (h : Vec F S8x144x256 .f32) (e : Vec F S8x16x128 .f32) (n : Vec F S8x128 .f32) :
    k0_pay40 acc (k0_pay33 n) (k0_pay34 h) (k0_pay37 (k0_pay31 h) (k0_pay32 e) (k0_pay35 h e) (k0_pay36 h e)) (k0_pay38 (k0_pay31 h)) (k0_pay39 (k0_pay32 e)) = chunk acc h e n := rfl

theorem chunk_4 (acc : FVec F S8x256 .f32) (h : Vec F S8x144x256 .f32) (e : Vec F S8x16x128 .f32) (n : Vec F S8x128 .f32) :
    k0_pay50 acc (k0_pay41 h) (k0_pay42 e) (k0_pay43 n) (k0_pay44 h) (k0_pay48 (k0_pay41 h) (k0_pay42 e) (k0_pay45 h e) (k0_pay46 h) (k0_pay47 e)) (k0_pay49 (k0_pay41 h) (k0_pay42 e)) = chunk acc h e n := rfl

theorem chunk_5 (acc : FVec F S8x256 .f32) (h : Vec F S8x144x256 .f32) (e : Vec F S8x16x128 .f32) (n : Vec F S8x128 .f32) :
    k0_pay61 acc (k0_pay51 h) (k0_pay52 e) (k0_pay53 n) (k0_pay54 h) (k0_pay58 (k0_pay51 h) (k0_pay52 e) (k0_pay55 h e) (k0_pay56 h) (k0_pay57 e)) (k0_pay59 (k0_pay51 h)) (k0_pay60 (k0_pay52 e)) = chunk acc h e n := rfl

theorem chunk_6 (acc : FVec F S8x256 .f32) (h : Vec F S8x144x256 .f32) (e : Vec F S8x16x128 .f32) (n : Vec F S8x128 .f32) :
    k0_pay71 acc (k0_pay64 n) (k0_pay65 (k0_pay62 h)) (k0_pay69 (k0_pay62 h) (k0_pay63 e) (k0_pay66 (k0_pay62 h) e) (k0_pay67 (k0_pay62 h)) (k0_pay68 e)) (k0_pay70 (F := F)) = chunk acc h e n := rfl

theorem chunk_7 (acc : FVec F S8x256 .f32) (h : Vec F S8x144x256 .f32) (e : Vec F S8x16x128 .f32) (n : Vec F S8x128 .f32) :
    k0_pay81 acc (k0_pay72 h) (k0_pay73 e) (k0_pay74 n) (k0_pay75 h) (k0_pay78 (k0_pay72 h) (k0_pay73 e) (k0_pay76 h e) (k0_pay77 h)) (k0_pay79 (k0_pay72 h)) (k0_pay80 (k0_pay73 e)) = chunk acc h e n := rfl

theorem chunk_8 (acc : FVec F S8x256 .f32) (h : Vec F S8x144x256 .f32) (e : Vec F S8x16x128 .f32) (n : Vec F S8x128 .f32) :
    k0_pay91 acc (k0_pay82 h) (k0_pay83 e) (k0_pay84 n) (k0_pay85 h) (k0_pay89 (k0_pay82 h) (k0_pay83 e) (k0_pay86 h e) (k0_pay87 h) (k0_pay88 e)) (k0_pay90 (k0_pay82 h)) = chunk acc h e n := rfl

theorem chunk_9 (acc : FVec F S8x256 .f32) (h : Vec F S8x144x256 .f32) (e : Vec F S8x16x128 .f32) (n : Vec F S8x128 .f32) :
    k0_pay100 acc (k0_pay99 (k0_pay92 h) (k0_pay93 e) (k0_pay94 n) (k0_pay95 (k0_pay92 h)) (k0_pay96 (k0_pay92 h) (k0_pay93 e)) (k0_pay97 (k0_pay92 h)) (k0_pay98 (k0_pay93 e))) = chunk acc h e n := rfl

theorem chunk_10 (acc : FVec F S8x256 .f32) (h : Vec F S8x144x256 .f32) (e : Vec F S8x16x128 .f32) (n : Vec F S8x128 .f32) :
    k0_pay109 acc (k0_pay101 h) (k0_pay102 e) (k0_pay103 n) (k0_pay104 h) (k0_pay106 (k0_pay101 h) (k0_pay102 e) (k0_pay105 h e)) (k0_pay107 (k0_pay101 h)) (k0_pay108 (k0_pay102 e)) = chunk acc h e n := rfl

theorem chunk_11 (acc : FVec F S8x256 .f32) (h : Vec F S8x144x256 .f32) (e : Vec F S8x16x128 .f32) (n : Vec F S8x128 .f32) :
    k0_pay118 acc (k0_pay110 h) (k0_pay111 e) (k0_pay112 n) (k0_pay113 h) (k0_pay117 (k0_pay110 h) (k0_pay111 e) (k0_pay114 h e) (k0_pay115 h) (k0_pay116 e)) = chunk acc h e n := rfl

theorem chunk_12 (acc : FVec F S8x256 .f32) (h : Vec F S8x144x256 .f32) (e : Vec F S8x16x128 .f32) (n : Vec F S8x128 .f32) :
    k0_pay128 acc (k0_pay119 h) (k0_pay120 e) (k0_pay121 n) (k0_pay122 h) (k0_pay125 (k0_pay119 h) (k0_pay120 e) (k0_pay123 h) (k0_pay124 e)) (k0_pay126 (k0_pay119 h)) (k0_pay127 (k0_pay120 e)) = chunk acc h e n := rfl

theorem chunk_13 (acc : FVec F S8x256 .f32) (h : Vec F S8x144x256 .f32) (e : Vec F S8x16x128 .f32) (n : Vec F S8x128 .f32) :
    k0_pay138 acc (k0_pay131 n) (k0_pay132 h) (k0_pay135 (k0_pay129 h) (k0_pay130 e) (k0_pay133 h e) (k0_pay134 h e)) (k0_pay136 (k0_pay129 h)) (k0_pay137 (k0_pay130 e)) = chunk acc h e n := rfl

theorem chunk_14 (acc : FVec F S8x256 .f32) (h : Vec F S8x144x256 .f32) (e : Vec F S8x16x128 .f32) (n : Vec F S8x128 .f32) :
    k0_pay148 acc (k0_pay139 h) (k0_pay140 e) (k0_pay141 n) (k0_pay142 h) (k0_pay146 (k0_pay139 h) (k0_pay140 e) (k0_pay143 h e) (k0_pay144 h) (k0_pay145 e)) (k0_pay147 (k0_pay139 h) (k0_pay140 e)) = chunk acc h e n := rfl

theorem chunk_15 (acc : FVec F S8x256 .f32) (h : Vec F S8x144x256 .f32) (e : Vec F S8x16x128 .f32) (n : Vec F S8x128 .f32) :
    k0_pay1 acc (k0_pay149 h) (k0_pay150 e) (k0_pay151 n) (k0_pay152 h) (k0_pay159 (k0_pay149 h) (k0_pay150 e) (k0_pay156 (k0_pay149 h) (k0_pay150 e) (k0_pay153 h e) (k0_pay154 h) (k0_pay155 e)) (k0_pay157 (k0_pay149 h)) (k0_pay158 (k0_pay150 e))) (k0_pay160 (k0_pay149 h)) (k0_pay161 (k0_pay150 e)) = chunk acc h e n := rfl

/-- The block the body leaves in the output window: sixteen steps from the zero total, stretch `c` loading rows
    `128 c … 128 c + 143` of the embeddings and columns `128 c … 128 c + 127` of the edge weights and of the gates. -/
theorem out_eq_chunks (x0 : Vec F S8x2064x256 .f32) (x1 : Vec F S8x16x2048 .f32) (x2 : Vec F S8x2048 .f32) :
    out0_3 x0 x1 x2 = View.canon [⟨r0_48,
      (chunk (chunk (chunk (chunk (chunk (chunk (chunk (chunk (chunk (chunk (chunk (chunk (chunk (chunk (chunk (chunk (k0_pay2 (F := F)) (View.ld x0 r0_0) (View.ld x1 r0_1) (View.ld x2 r0_2)) (View.ld x0 r0_3) (View.ld x1 r0_4) (View.ld x2 r0_5)) (View.ld x0 r0_6) (View.ld x1 r0_7) (View.ld x2 r0_8)) (View.ld x0 r0_9) (View.ld x1 r0_10) (View.ld x2 r0_11)) (View.ld x0 r0_12) (View.ld x1 r0_13) (View.ld x2 r0_14)) (View.ld x0 r0_15) (View.ld x1 r0_16) (View.ld x2 r0_17)) (View.ld x0 r0_18) (View.ld x1 r0_19) (View.ld x2 r0_20)) (View.ld x0 r0_21) (View.ld x1 r0_22) (View.ld x2 r0_23)) (View.ld x0 r0_24) (View.ld x1 r0_25) (View.ld x2 r0_26)) (View.ld x0 r0_27) (View.ld x1 r0_28) (View.ld x2 r0_29)) (View.ld x0 r0_30) (View.ld x1 r0_31) (View.ld x2 r0_32)) (View.ld x0 r0_33) (View.ld x1 r0_34) (View.ld x2 r0_35)) (View.ld x0 r0_36) (View.ld x1 r0_37) (View.ld x2 r0_38)) (View.ld x0 r0_39) (View.ld x1 r0_40) (View.ld x2 r0_41)) (View.ld x0 r0_42) (View.ld x1 r0_43) (View.ld x2 r0_44)) (View.ld x0 r0_45) (View.ld x1 r0_46) (View.ld x2 r0_47))⟩] := by
  unfold out0_3
  simp only [chunk_0, chunk_1, chunk_2, chunk_3, chunk_4, chunk_5, chunk_6, chunk_7, chunk_8, chunk_9, chunk_10, chunk_11, chunk_12, chunk_13, chunk_14, chunk_15]

end Cert.Body

end
-- ==== Proof.ChunkAt.lean ====
/-
  One stretch of the body read at a batch row `b` and a feature `d`.

  Every operation of a stretch acts position by position except the final sum: the shifted slices read the loaded
  embeddings `o` rows further down, the edge weights and the gate of position `r` are spread along the features, and the
  sum over the stretch's 128 positions is a finite sum on the extended reals. So a stretch adds to the running total

      ∑ r < 128, (1 − gate b r) · max_j (emb b (r + off j) d · weight b j r) + gate b r · emb b (r + 8) d .
-/
import proofs.«121150_j77670188581209_2_alg».proof.Proof.Chunk
import proofs.«121150_j77670188581209_2_alg».proof.Proof.Spec
import Idealize.ShloMosaic.Lib.Pipeline.Value
import Idealize.ShloMosaic.Lib.ValueIdx
import Idealize.ShloMosaic.PureOps.Ideal.Laws

noncomputable section

open scoped BigOperators

namespace Cert.Body

open Idealize.ShloMosaic Idealize.ShloMosaic.ValueIdx Cert.KernelIdeal Cert.KernelIdeal.Gen

/-- The largest of sixteen extended reals, taken from −∞ over the index set, is the nested maximum in index order. -/
theorem fold16 (f : Fin 16 → EReal) :
    (Finset.univ : Finset (Fin 16)).fold max ⊥ f = max (max (max (max (max (max (max (max (max (max (max (max (max (max (max (f 0) (f 1)) (f 2)) (f 3)) (f 4)) (f 5)) (f 6)) (f 7)) (f 8)) (f 9)) (f 10)) (f 11)) (f 12)) (f 13)) (f 14)) (f 15) := by
  apply le_antisymm
  · rw [Finset.fold_max_le]
    refine ⟨bot_le, fun x _ => ?_⟩
    fin_cases x <;> simp [le_max_iff, le_refl]
  · simp only [max_le_iff]
    have h : ∀ j : Fin 16, f j ≤ (Finset.univ : Finset (Fin 16)).fold max ⊥ f :=
      fun j => (Finset.le_fold_max (f j)).mpr (Or.inr ⟨j, Finset.mem_univ j, le_refl _⟩)
    exact ⟨⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩, h 15⟩

/-- A row of 128 values viewed as a column [8, 128, 1] reads the row. -/
theorem col_at (x : FVec Ideal S8x128 .f32) (b : Fin 8) (r : Fin 128) (u : Fin 1) :
    shapeCast S8x128x1 x shapeCasts_S8x128_S8x128x1 (ix3 b r u) = x (ix2 b r) := by
  refine shapeCast_apply x _ (ix3 b r u) (ix2 b r) ?_
  rw [Shape.rowMajor_val_two, Shape.rowMajor_val_three]
  show b.val * 128 + r.val = (b.val * 128 + r.val) * 1 + u.val
  omega

/-- One extracted row [8, 1, 128] viewed [8, 128] reads the row. -/
theorem row_at (x : FVec Ideal S8x1x128 .f32) (b : Fin 8) (r : Fin 128) :
    shapeCast S8x128 x shapeCasts_S8x1x128_S8x128 (ix2 b r) = x (ix3 b (0 : Fin 1) r) := by
  refine shapeCast_apply x _ (ix2 b r) (ix3 b (0 : Fin 1) r) ?_
  rw [Shape.rowMajor_val_two, Shape.rowMajor_val_three]
  show (b.val * 1 + 0) * 128 + r.val = b.val * 128 + r.val
  omega

/-- A column [8, 128, 1] spread along the 256 features reads the column. -/
theorem spread_at (x : FVec Ideal S8x128x1 .f32) (b : Fin 8) (r : Fin 128) (d : Fin 256) :
    broadcastTo S8x128x256 x broadcasts_S8x128x1_S8x128x256 (ix3 b r d) = x (ix3 b r (0 : Fin 1)) :=
  broadcastTo_apply x _ (ix3 b r d) (ix3 b r (0 : Fin 1)) (fun a => match a with
    | ⟨0, _⟩ => rfl
    | ⟨1, _⟩ => rfl
    | ⟨2, _⟩ => rfl)

/-- One neighbour's product at (b, r, d): the embedding `o` rows below `r` times that neighbour's weight at `r`. -/
theorem prod_at (o : Fin 3 → Nat) (j : Fin 3 → Nat) (ho : S8x144x256.Slices o S8x128x256) (hj : S8x16x128.Slices j S8x1x128)
    (v2 : FVec Ideal S8x144x256 .f32) (v4 : FVec Ideal S8x16x128 .f32) (b : Fin 8) (r : Fin 128) (d : Fin 256)
    (ro : Fin 144) (jj : Fin 16) (ho0 : o 0 = 0) (ho1 : ro.val = o 1 + r.val) (ho2 : o 2 = 0)
    (hj0 : j 0 = 0) (hj1 : jj.val = j 1) (hj2 : j 2 = 0) :
    prod o j ho hj v2 v4 (ix3 b r d) = v2 (ix3 b ro d) * v4 (ix3 b jj r) := by
  unfold prod
  show extractStridedSlice S8x128x256 o v2 ho (ix3 b r d) * broadcastTo S8x128x256 _ broadcasts_S8x128x1_S8x128x256 (ix3 b r d) = _
  rw [spread_at, col_at, row_at]
  have e1 : extractStridedSlice S8x128x256 o v2 ho (ix3 b r d) = v2 (ix3 b ro d) :=
    extractStridedSlice_apply o v2 ho (ix3 b r d) (ix3 b ro d) (fun a => match a with
      | ⟨0, _⟩ => by show b.val = o 0 + b.val; omega
      | ⟨1, _⟩ => by show ro.val = o 1 + r.val; omega
      | ⟨2, _⟩ => by show d.val = o 2 + d.val; omega)
  have e2 : extractStridedSlice S8x1x128 j v4 hj (ix3 b (0 : Fin 1) r) = v4 (ix3 b jj r) :=
    extractStridedSlice_apply j v4 hj (ix3 b (0 : Fin 1) r) (ix3 b jj r) (fun a => match a with
      | ⟨0, _⟩ => by show b.val = j 0 + b.val; omega
      | ⟨1, _⟩ => by show jj.val = j 1 + 0; omega
      | ⟨2, _⟩ => by show r.val = j 2 + r.val; omega)
  rw [e1, e2]

/-- The largest neighbour product at (b, r, d), as the maximum over the sixteen neighbours from −∞. -/
theorem bestProd_at (v2 : FVec Ideal S8x144x256 .f32) (v4 : FVec Ideal S8x16x128 .f32) (b : Fin 8) (r : Fin 128) (d : Fin 256) :
    bestProd v2 v4 (ix3 b r d)
      = (Finset.univ : Finset (Fin 16)).fold max ⊥
          (fun j => v2 (ix3 b ⟨r.val + Cert.Spec.off j, by have := Cert.Spec.off_lt j; omega⟩ d) * v4 (ix3 b j r)) := by
  rw [fold16]
  unfold bestProd
  simp only [maximumf_apply]
  rw [
    prod_at ![0, 0, 0] ![0, 0, 0] slices_S8x144x256_o0_0_0_S8x128x256 slices_S8x16x128_o0_0_0_S8x1x128 v2 v4 b r d
      ⟨r.val + 0, by omega⟩ ⟨0, by omega⟩ rfl (by show r.val + 0 = 0 + r.val; omega) rfl rfl rfl rfl,
    prod_at ![0, 1, 0] ![0, 1, 0] slices_S8x144x256_o0_1_0_S8x128x256 slices_S8x16x128_o0_1_0_S8x1x128 v2 v4 b r d
      ⟨r.val + 1, by omega⟩ ⟨1, by omega⟩ rfl (by show r.val + 1 = 1 + r.val; omega) rfl rfl rfl rfl,
    prod_at ![0, 2, 0] ![0, 2, 0] slices_S8x144x256_o0_2_0_S8x128x256 slices_S8x16x128_o0_2_0_S8x1x128 v2 v4 b r d
      ⟨r.val + 2, by omega⟩ ⟨2, by omega⟩ rfl (by show r.val + 2 = 2 + r.val; omega) rfl rfl rfl rfl,
    prod_at ![0, 3, 0] ![0, 3, 0] slices_S8x144x256_o0_3_0_S8x128x256 slices_S8x16x128_o0_3_0_S8x1x128 v2 v4 b r d
      ⟨r.val + 3, by omega⟩ ⟨3, by omega⟩ rfl (by show r.val + 3 = 3 + r.val; omega) rfl rfl rfl rfl,
    prod_at ![0, 4, 0] ![0, 4, 0] slices_S8x144x256_o0_4_0_S8x128x256 slices_S8x16x128_o0_4_0_S8x1x128 v2 v4 b r d
      ⟨r.val + 4, by omega⟩ ⟨4, by omega⟩ rfl (by show r.val + 4 = 4 + r.val; omega) rfl rfl rfl rfl,
    prod_at ![0, 5, 0] ![0, 5, 0] slices_S8x144x256_o0_5_0_S8x128x256 slices_S8x16x128_o0_5_0_S8x1x128 v2 v4 b r d
      ⟨r.val + 5, by omega⟩ ⟨5, by omega⟩ rfl (by show r.val + 5 = 5 + r.val; omega) rfl rfl rfl rfl,
    prod_at ![0, 6, 0] ![0, 6, 0] slices_S8x144x256_o0_6_0_S8x128x256 slices_S8x16x128_o0_6_0_S8x1x128 v2 v4 b r d
      ⟨r.val + 6, by omega⟩ ⟨6, by omega⟩ rfl (by show r.val + 6 = 6 + r.val; omega) rfl rfl rfl rfl,
    prod_at ![0, 7, 0] ![0, 7, 0] slices_S8x144x256_o0_7_0_S8x128x256 slices_S8x16x128_o0_7_0_S8x1x128 v2 v4 b r d
      ⟨r.val + 7, by omega⟩ ⟨7, by omega⟩ rfl (by show r.val + 7 = 7 + r.val; omega) rfl rfl rfl rfl,
    prod_at ![0, 9, 0] ![0, 8, 0] slices_S8x144x256_o0_9_0_S8x128x256 slices_S8x16x128_o0_8_0_S8x1x128 v2 v4 b r d
      ⟨r.val + 9, by omega⟩ ⟨8, by omega⟩ rfl (by show r.val + 9 = 9 + r.val; omega) rfl rfl rfl rfl,
    prod_at ![0, 10, 0] ![0, 9, 0] slices_S8x144x256_o0_10_0_S8x128x256 slices_S8x16x128_o0_9_0_S8x1x128 v2 v4 b r d
      ⟨r.val + 10, by omega⟩ ⟨9, by omega⟩ rfl (by show r.val + 10 = 10 + r.val; omega) rfl rfl rfl rfl,
    prod_at ![0, 11, 0] ![0, 10, 0] slices_S8x144x256_o0_11_0_S8x128x256 slices_S8x16x128_o0_10_0_S8x1x128 v2 v4 b r d
      ⟨r.val + 11, by omega⟩ ⟨10, by omega⟩ rfl (by show r.val + 11 = 11 + r.val; omega) rfl rfl rfl rfl,
    prod_at ![0, 12, 0] ![0, 11, 0] slices_S8x144x256_o0_12_0_S8x128x256 slices_S8x16x128_o0_11_0_S8x1x128 v2 v4 b r d
      ⟨r.val + 12, by omega⟩ ⟨11, by omega⟩ rfl (by show r.val + 12 = 12 + r.val; omega) rfl rfl rfl rfl,
    prod_at ![0, 13, 0] ![0, 12, 0] slices_S8x144x256_o0_13_0_S8x128x256 slices_S8x16x128_o0_12_0_S8x1x128 v2 v4 b r d
      ⟨r.val + 13, by omega⟩ ⟨12, by omega⟩ rfl (by show r.val + 13 = 13 + r.val; omega) rfl rfl rfl rfl,
    prod_at ![0, 14, 0] ![0, 13, 0] slices_S8x144x256_o0_14_0_S8x128x256 slices_S8x16x128_o0_13_0_S8x1x128 v2 v4 b r d
      ⟨r.val + 14, by omega⟩ ⟨13, by omega⟩ rfl (by show r.val + 14 = 14 + r.val; omega) rfl rfl rfl rfl,
    prod_at ![0, 15, 0] ![0, 14, 0] slices_S8x144x256_o0_15_0_S8x128x256 slices_S8x16x128_o0_14_0_S8x1x128 v2 v4 b r d
      ⟨r.val + 15, by omega⟩ ⟨14, by omega⟩ rfl (by show r.val + 15 = 15 + r.val; omega) rfl rfl rfl rfl,
    prod_at ![0, 16, 0] ![0, 15, 0] slices_S8x144x256_o0_16_0_S8x128x256 slices_S8x16x128_o0_15_0_S8x1x128 v2 v4 b r d
      ⟨r.val + 16, by omega⟩ ⟨15, by omega⟩ rfl (by show r.val + 16 = 16 + r.val; omega) rfl rfl rfl rfl]
  rfl

/-- One position's gated blend inside a stretch, from the three loaded values: the gate `v5 b r`, the sixteen
    weighted neighbours `v1 b (r + off j) d · v3 b j r`, and the position's own embedding `v1 b (r + 8) d`. -/
def stretchTerm (v1 : FVec Ideal S8x144x256 .f32) (v3 : FVec Ideal S8x16x128 .f32) (v5 : FVec Ideal S8x128 .f32)
    (b : Fin 8) (d : Fin 256) (r : Fin 128) : EReal :=
  (Ideal.ofBits .f32 0x3F800000#32 - v5 (ix2 b r))
      * (Finset.univ : Finset (Fin 16)).fold max ⊥
          (fun j => v1 (ix3 b ⟨r.val + Cert.Spec.off j, by have := Cert.Spec.off_lt j; omega⟩ d) * v3 (ix3 b j r))
    + v5 (ix2 b r) * v1 (ix3 b ⟨r.val + 8, by omega⟩ d)

/-- A stretch adds the sum of its 128 blends to the running total. -/
theorem chunk_at (acc : FVec Ideal S8x256 .f32) (v1 : FVec Ideal S8x144x256 .f32) (v3 : FVec Ideal S8x16x128 .f32)
    (v5 : FVec Ideal S8x128 .f32) (b : Fin 8) (d : Fin 256) :
    chunk (F := Ideal) acc v1 v3 v5 (ix2 b d) = acc (ix2 b d) + ∑ r : Fin 128, stretchTerm v1 v3 v5 b d r := by
  unfold chunk
  simp only [shapeCast_self]
  show acc (ix2 b d) + multiReduction .add [1] S8x256 _ 0x00000000#32 reduces_S8x128x256_S8x256 (.inl rfl) rfl (ix2 b d) = _
  congr 1
  refine (Ideal.multiReduction_add_single _ 0x00000000#32 reduces_S8x128x256_S8x256 (.inl rfl) rfl (ix2 b d)).trans ?_
  refine Finset.sum_congr rfl (fun (r : Fin 128) _ => ?_)
  have hl : reduces_S8x128x256_S8x256.lift (ix2 b d) r = ix3 b r d := by
    funext a; match a with | ⟨0, _⟩ => rfl | ⟨1, _⟩ => rfl | ⟨2, _⟩ => rfl
  rw [hl]
  have e1 := spread_at (subf (broadcast S8x128x1 (FloatOps.ofBits (F := Ideal) .f32 0x3F800000#32))
    (shapeCast S8x128x1 v5 shapeCasts_S8x128_S8x128x1)) b r d
  have e2 := spread_at (shapeCast S8x128x1 v5 shapeCasts_S8x128_S8x128x1) b r d
  have e3 := col_at v5 b r (0 : Fin 1)
  have e4 := bestProd_at v1 v3 b r d
  have e5 : extractStridedSlice S8x128x256 ![0, 8, 0] v1 slices_S8x144x256_o0_8_0_S8x128x256 (ix3 b r d)
      = v1 (ix3 b ⟨r.val + 8, by omega⟩ d) :=
    extractStridedSlice_apply ![0, 8, 0] v1 _ (ix3 b r d) (ix3 b ⟨r.val + 8, by omega⟩ d) (fun a => match a with
      | ⟨0, _⟩ => by show b.val = 0 + b.val; omega
      | ⟨1, _⟩ => by show r.val + 8 = 8 + r.val; omega
      | ⟨2, _⟩ => by show d.val = 0 + d.val; omega)
  show broadcastTo S8x128x256 _ broadcasts_S8x128x1_S8x128x256 (ix3 b r d) * bestProd (F := Ideal) v1 v3 (ix3 b r d)
      + broadcastTo S8x128x256 _ broadcasts_S8x128x1_S8x128x256 (ix3 b r d)
        * extractStridedSlice S8x128x256 ![0, 8, 0] v1 slices_S8x144x256_o0_8_0_S8x128x256 (ix3 b r d) = _
  rw [e1, e2, e4, e5]
  show (FloatOps.ofBits (F := Ideal) .f32 0x3F800000#32 - shapeCast S8x128x1 v5 shapeCasts_S8x128_S8x128x1 (ix3 b r (0 : Fin 1))) * _
      + shapeCast S8x128x1 v5 shapeCasts_S8x128_S8x128x1 (ix3 b r (0 : Fin 1)) * _ = _
  rw [e3]
  rfl

end Cert.Body

end
-- ==== Proof.LibSumBlocks.lean ====
/-
  A sum over the first `a * b` naturals, cut into `a` consecutive blocks of `b` terms each.

  A contraction of depth `a * b` that is carried out `b` terms at a time — one partial sum per block, the partial
  sums then added up — meets every term exactly once: the term at `k` in block `k / b`, at place `k % b`. In a
  commutative monoid the two groupings have the same value; nothing else about the addition is used (in particular
  no cancellation, so the statement holds on the extended reals with their infinities).
-/
import Mathlib.Algebra.BigOperators.Fin
import Mathlib.Algebra.BigOperators.Intervals

namespace Cert.Lib.SumBlocks

open Finset

/-- The sum of `g` over `0 … a·b - 1` is the sum over the blocks `s < a` of the block's `b` terms `g (b·s + r)`, `r < b`. -/
theorem sum_range_mul_blocks {M : Type*} [AddCommMonoid M] (g : ℕ → M) (a b : ℕ) :
    ∑ k ∈ range (a * b), g k = ∑ s ∈ range a, ∑ r ∈ range b, g (b * s + r) := by
  induction a with
  | zero => simp
  | succ a ih =>
    rw [Nat.succ_mul, sum_range_add, ih, sum_range_succ, Nat.mul_comm a b]

/-- The same with the whole sum and each block's sum indexed by `Fin`: a `Fin (a·b)`-indexed sum of a function of the
    index's value is the sum over the blocks `s < a` of the `Fin b`-indexed sums of the block's terms. -/
theorem sum_fin_mul_blocks {M : Type*} [AddCommMonoid M] (g : ℕ → M) (a b : ℕ) :
    ∑ k : Fin (a * b), g k.val = ∑ s ∈ range a, ∑ r : Fin b, g (b * s + r.val) := by
  rw [Fin.sum_univ_eq_sum_range (fun k => g k) (a * b), sum_range_mul_blocks]
  exact sum_congr rfl fun s _ => (Fin.sum_univ_eq_sum_range (fun r => g (b * s + r)) b).symm

/-- The instance a depth-4096 contraction done in eight blocks of 512 needs, with the literal `4096` in the type. -/
theorem sum_fin_4096_blocks {M : Type*} [AddCommMonoid M] (g : ℕ → M) :
    ∑ k : Fin 4096, g k.val = ∑ s ∈ range 8, ∑ r : Fin 512, g (512 * s + r.val) :=
  sum_fin_mul_blocks g 8 512

end Cert.Lib.SumBlocks
-- ==== Proof.BlockValue.lean ====
/-
  The block the body leaves, read at a batch row `b` of the block and a feature `d`.

  Stretch `c` loads rows `128 c … 128 c + 143` of the block's padded embeddings and columns `128 c … 128 c + 127` of its
  edge weights and gates, so position `r` of the stretch is position `128 c + r` of the block, its neighbour `j` row
  `128 c + r + off j` of the padded embeddings. The sixteen stretch sums, added to the zero the total starts from, are
  the sum over all 2048 positions: a sum cut into sixteen consecutive blocks of 128 terms.
-/
import proofs.«121150_j77670188581209_2_alg».proof.Proof.ChunkAt
import proofs.«121150_j77670188581209_2_alg».proof.Proof.LibSumBlocks

noncomputable section

open scoped BigOperators

namespace Cert.Body

open Idealize.ShloMosaic Idealize.ShloMosaic.ValueIdx Cert.KernelIdeal Cert.KernelIdeal.Gen

/-- One position's gated blend, from the block's three staged arrays: the padded embeddings `x0` [8, 2064, 256], the
    edge weights `x1` [8, 16, 2048] and the gates `x2` [8, 2048]. -/
def blockTerm (x0 : Vec Ideal S8x2064x256 .f32) (x1 : Vec Ideal S8x16x2048 .f32) (x2 : Vec Ideal S8x2048 .f32)
    (b : Fin 8) (d : Fin 256) (l : Fin 2048) : EReal :=
  (Ideal.ofBits .f32 0x3F800000#32 - x2 (ix2 b l))
      * (Finset.univ : Finset (Fin 16)).fold max ⊥
          (fun j => x0 (ix3 b ⟨l.val + Cert.Spec.off j, by have := Cert.Spec.off_lt j; omega⟩ d) * x1 (ix3 b j l))
    + x2 (ix2 b l) * x0 (ix3 b ⟨l.val + 8, by omega⟩ d)

/-- A load of 144 rows of the padded embeddings starting at row `s` reads row `s + ρ` at its row `ρ`. -/
theorem ld_rows_at (x0 : Vec Ideal S8x2064x256 .f32) (o : Fin 3 → Nat) (inb : ∀ a, o a + S8x144x256.size a ≤ S8x2064x256.size a)
    (s : Nat) (h0 : o 0 = 0) (h1 : o 1 = s) (h2 : o 2 = 0) (b : Fin 8) (ρ : Fin 144) (d : Fin 256) (k : Fin 2064)
    (hk : k.val = s + ρ.val) :
    View.ld x0 (Rect.unit (s := S8x2064x256) o S8x144x256.size inb) (ix3 b ρ d) = x0 (ix3 b k d) := by
  show x0 ((Rect.unit (s := S8x2064x256) o S8x144x256.size inb).emb (ix3 b ρ d)) = _
  congr 1
  funext a; apply Fin.ext
  match a with
  | ⟨0, _⟩ => show o 0 + 1 * b.val = b.val; omega
  | ⟨1, _⟩ => show o 1 + 1 * ρ.val = k.val; omega
  | ⟨2, _⟩ => show o 2 + 1 * d.val = d.val; omega

/-- A load of 128 columns of the edge weights starting at column `s` reads column `s + r` at its column `r`. -/
theorem ld_weights_at (x1 : Vec Ideal S8x16x2048 .f32) (o : Fin 3 → Nat) (inb : ∀ a, o a + S8x16x128.size a ≤ S8x16x2048.size a)
    (s : Nat) (h0 : o 0 = 0) (h1 : o 1 = 0) (h2 : o 2 = s) (b : Fin 8) (j : Fin 16) (r : Fin 128) (k : Fin 2048)
    (hk : k.val = s + r.val) :
    View.ld x1 (Rect.unit (s := S8x16x2048) o S8x16x128.size inb) (ix3 b j r) = x1 (ix3 b j k) := by
  show x1 ((Rect.unit (s := S8x16x2048) o S8x16x128.size inb).emb (ix3 b j r)) = _
  congr 1
  funext a; apply Fin.ext
  match a with
  | ⟨0, _⟩ => show o 0 + 1 * b.val = b.val; omega
  | ⟨1, _⟩ => show o 1 + 1 * j.val = j.val; omega
  | ⟨2, _⟩ => show o 2 + 1 * r.val = k.val; omega

/-- A load of 128 columns of the gates starting at column `s` reads column `s + r` at its column `r`. -/
theorem ld_gates_at (x2 : Vec Ideal S8x2048 .f32) (o : Fin 2 → Nat) (inb : ∀ a, o a + S8x128.size a ≤ S8x2048.size a)
    (s : Nat) (h0 : o 0 = 0) (h1 : o 1 = s) (b : Fin 8) (r : Fin 128) (k : Fin 2048) (hk : k.val = s + r.val) :
    View.ld x2 (Rect.unit (s := S8x2048) o S8x128.size inb) (ix2 b r) = x2 (ix2 b k) := by
  show x2 ((Rect.unit (s := S8x2048) o S8x128.size inb).emb (ix2 b r)) = _
  congr 1
  funext a; apply Fin.ext
  match a with
  | ⟨0, _⟩ => show o 0 + 1 * b.val = b.val; omega
  | ⟨1, _⟩ => show o 1 + 1 * r.val = k.val; omega

/-- Position `r` of the stretch that starts at `s` is position `s + r` of the block. -/
theorem stretchTerm_ld (x0 : Vec Ideal S8x2064x256 .f32) (x1 : Vec Ideal S8x16x2048 .f32) (x2 : Vec Ideal S8x2048 .f32)
    (o0 o1 : Fin 3 → Nat) (o2 : Fin 2 → Nat)
    (inb0 : ∀ a, o0 a + S8x144x256.size a ≤ S8x2064x256.size a) (inb1 : ∀ a, o1 a + S8x16x128.size a ≤ S8x16x2048.size a)
    (inb2 : ∀ a, o2 a + S8x128.size a ≤ S8x2048.size a) (s : Nat) (hs : s + 128 ≤ 2048)
    (h00 : o0 0 = 0) (h01 : o0 1 = s) (h02 : o0 2 = 0) (h10 : o1 0 = 0) (h11 : o1 1 = 0) (h12 : o1 2 = s)
    (h20 : o2 0 = 0) (h21 : o2 1 = s) (b : Fin 8) (d : Fin 256) (r : Fin 128) :
    stretchTerm (View.ld x0 (Rect.unit (s := S8x2064x256) o0 S8x144x256.size inb0))
        (View.ld x1 (Rect.unit (s := S8x16x2048) o1 S8x16x128.size inb1))
        (View.ld x2 (Rect.unit (s := S8x2048) o2 S8x128.size inb2)) b d r
      = blockTerm x0 x1 x2 b d ⟨s + r.val, by omega⟩ := by
  have eg := ld_gates_at x2 o2 inb2 s h20 h21 b r ⟨s + r.val, by omega⟩ rfl
  have es := ld_rows_at x0 o0 inb0 s h00 h01 h02 b ⟨r.val + 8, by omega⟩ d ⟨s + r.val + 8, by omega⟩
    (by show s + r.val + 8 = s + (r.val + 8); omega)
  have ef : (fun j : Fin 16 =>
        View.ld x0 (Rect.unit (s := S8x2064x256) o0 S8x144x256.size inb0)
            (ix3 b ⟨r.val + Cert.Spec.off j, by have := Cert.Spec.off_lt j; omega⟩ d)
          * View.ld x1 (Rect.unit (s := S8x16x2048) o1 S8x16x128.size inb1) (ix3 b j r))
      = (fun j : Fin 16 =>
        x0 (ix3 b ⟨s + r.val + Cert.Spec.off j, by have := Cert.Spec.off_lt j; omega⟩ d) * x1 (ix3 b j ⟨s + r.val, by omega⟩)) :=
    funext fun j => by
      rw [ld_rows_at x0 o0 inb0 s h00 h01 h02 b ⟨r.val + Cert.Spec.off j, by have := Cert.Spec.off_lt j; omega⟩ d
          ⟨s + r.val + Cert.Spec.off j, by have := Cert.Spec.off_lt j; omega⟩
          (by show s + r.val + Cert.Spec.off j = s + (r.val + Cert.Spec.off j); omega),
        ld_weights_at x1 o1 inb1 s h10 h11 h12 b j r ⟨s + r.val, by omega⟩ rfl]
  unfold stretchTerm blockTerm
  rw [eg, es, ef]

theorem hz : (![0, 0] : Fin 2 → Nat) = fun _ => 0 := funext fun a => by fin_cases a <;> rfl

/-- THE BLOCK'S VALUE: at (b, d) the body leaves the sum of the 2048 positions' blends. -/
theorem out_at (x0 : Vec Ideal S8x2064x256 .f32) (x1 : Vec Ideal S8x16x2048 .f32) (x2 : Vec Ideal S8x2048 .f32)
    (b : Fin 8) (d : Fin 256) :
    out0_3 x0 x1 x2 (ix2 b d) = ∑ l : Fin 2048, blockTerm x0 x1 x2 b d l := by
  -- the blends as a function of a natural position, for cutting the sum into the stretches
  let g : ℕ → EReal := fun k => if h : k < 2048 then blockTerm x0 x1 x2 b d ⟨k, h⟩ else 0
  have hg : ∀ (s : Nat) (r : Fin 128) (hs : s + 128 ≤ 2048), blockTerm x0 x1 x2 b d ⟨s + r.val, by omega⟩ = g (s + r.val) :=
    fun s r hs => by simp only [g]; rw [dif_pos (show s + r.val < 2048 by omega)]
  have h0 : (∑ r : Fin 128, stretchTerm (View.ld x0 r0_0) (View.ld x1 r0_1) (View.ld x2 r0_2) b d r)
      = ∑ r : Fin 128, g (128 * 0 + r.val) :=
    Finset.sum_congr rfl (fun r _ => (stretchTerm_ld x0 x1 x2 ![0, 0, 0] ![0, 0, 0] ![0, 0] _ _ _ 0 (by norm_num)
      rfl rfl rfl rfl rfl rfl rfl rfl b d r).trans (hg 0 r (by norm_num)))
  have h1 : (∑ r : Fin 128, stretchTerm (View.ld x0 r0_3) (View.ld x1 r0_4) (View.ld x2 r0_5) b d r)
      = ∑ r : Fin 128, g (128 * 1 + r.val) :=
    Finset.sum_congr rfl (fun r _ => (stretchTerm_ld x0 x1 x2 ![0, 128, 0] ![0, 0, 128] ![0, 128] _ _ _ 128 (by norm_num)
      rfl rfl rfl rfl rfl rfl rfl rfl b d r).trans (hg 128 r (by norm_num)))
  have h2 : (∑ r : Fin 128, stretchTerm (View.ld x0 r0_6) (View.ld x1 r0_7) (View.ld x2 r0_8) b d r)
      = ∑ r : Fin 128, g (128 * 2 + r.val) :=
    Finset.sum_congr rfl (fun r _ => (stretchTerm_ld x0 x1 x2 ![0, 256, 0] ![0, 0, 256] ![0, 256] _ _ _ 256 (by norm_num)
      rfl rfl rfl rfl rfl rfl rfl rfl b d r).trans (hg 256 r (by norm_num)))
  have h3 : (∑ r : Fin 128, stretchTerm (View.ld x0 r0_9) (View.ld x1 r0_10) (View.ld x2 r0_11) b d r)
      = ∑ r : Fin 128, g (128 * 3 + r.val) :=
    Finset.sum_congr rfl (fun r _ => (stretchTerm_ld x0 x1 x2 ![0, 384, 0] ![0, 0, 384] ![0, 384] _ _ _ 384 (by norm_num)
      rfl rfl rfl rfl rfl rfl rfl rfl b d r).trans (hg 384 r (by norm_num)))
  have h4 : (∑ r : Fin 128, stretchTerm (View.ld x0 r0_12) (View.ld x1 r0_13) (View.ld x2 r0_14) b d r)
      = ∑ r : Fin 128, g (128 * 4 + r.val) :=
    Finset.sum_congr rfl (fun r _ => (stretchTerm_ld x0 x1 x2 ![0, 512, 0] ![0, 0, 512] ![0, 512] _ _ _ 512 (by norm_num)
      rfl rfl rfl rfl rfl rfl rfl rfl b d r).trans (hg 512 r (by norm_num)))
  have h5 : (∑ r : Fin 128, stretchTerm (View.ld x0 r0_15) (View.ld x1 r0_16) (View.ld x2 r0_17) b d r)
      = ∑ r : Fin 128, g (128 * 5 + r.val) :=
    Finset.sum_congr rfl (fun r _ => (stretchTerm_ld x0 x1 x2 ![0, 640, 0] ![0, 0, 640] ![0, 640] _ _ _ 640 (by norm_num)
      rfl rfl rfl rfl rfl rfl rfl rfl b d r).trans (hg 640 r (by norm_num)))
  have h6 : (∑ r : Fin 128, stretchTerm (View.ld x0 r0_18) (View.ld x1 r0_19) (View.ld x2 r0_20) b d r)
      = ∑ r : Fin 128, g (128 * 6 + r.val) :=
    Finset.sum_congr rfl (fun r _ => (stretchTerm_ld x0 x1 x2 ![0, 768, 0] ![0, 0, 768] ![0, 768] _ _ _ 768 (by norm_num)
      rfl rfl rfl rfl rfl rfl rfl rfl b d r).trans (hg 768 r (by norm_num)))
  have h7 : (∑ r : Fin 128, stretchTerm (View.ld x0 r0_21) (View.ld x1 r0_22) (View.ld x2 r0_23) b d r)
      = ∑ r : Fin 128, g (128 * 7 + r.val) :=
    Finset.sum_congr rfl (fun r _ => (stretchTerm_ld x0 x1 x2 ![0, 896, 0] ![0, 0, 896] ![0, 896] _ _ _ 896 (by norm_num)
      rfl rfl rfl rfl rfl rfl rfl rfl b d r).trans (hg 896 r (by norm_num)))
  have h8 : (∑ r : Fin 128, stretchTerm (View.ld x0 r0_24) (View.ld x1 r0_25) (View.ld x2 r0_26) b d r)
      = ∑ r : Fin 128, g (128 * 8 + r.val) :=
    Finset.sum_congr rfl (fun r _ => (stretchTerm_ld x0 x1 x2 ![0, 1024, 0] ![0, 0, 1024] ![0, 1024] _ _ _ 1024 (by norm_num)
      rfl rfl rfl rfl rfl rfl rfl rfl b d r).trans (hg 1024 r (by norm_num)))
  have h9 : (∑ r : Fin 128, stretchTerm (View.ld x0 r0_27) (View.ld x1 r0_28) (View.ld x2 r0_29) b d r)
      = ∑ r : Fin 128, g (128 * 9 + r.val) :=
    Finset.sum_congr rfl (fun r _ => (stretchTerm_ld x0 x1 x2 ![0, 1152, 0] ![0, 0, 1152] ![0, 1152] _ _ _ 1152 (by norm_num)
      rfl rfl rfl rfl rfl rfl rfl rfl b d r).trans (hg 1152 r (by norm_num)))
  have h10 : (∑ r : Fin 128, stretchTerm (View.ld x0 r0_30) (View.ld x1 r0_31) (View.ld x2 r0_32) b d r)
      = ∑ r : Fin 128, g (128 * 10 + r.val) :=
    Finset.sum_congr rfl (fun r _ => (stretchTerm_ld x0 x1 x2 ![0, 1280, 0] ![0, 0, 1280] ![0, 1280] _ _ _ 1280 (by norm_num)
      rfl rfl rfl rfl rfl rfl rfl rfl b d r).trans (hg 1280 r (by norm_num)))
  have h11 : (∑ r : Fin 128, stretchTerm (View.ld x0 r0_33) (View.ld x1 r0_34) (View.ld x2 r0_35) b d r)
      = ∑ r : Fin 128, g (128 * 11 + r.val) :=
    Finset.sum_congr rfl (fun r _ => (stretchTerm_ld x0 x1 x2 ![0, 1408, 0] ![0, 0, 1408] ![0, 1408] _ _ _ 1408 (by norm_num)
      rfl rfl rfl rfl rfl rfl rfl rfl b d r).trans (hg 1408 r (by norm_num)))
  have h12 : (∑ r : Fin 128, stretchTerm (View.ld x0 r0_36) (View.ld x1 r0_37) (View.ld x2 r0_38) b d r)
      = ∑ r : Fin 128, g (128 * 12 + r.val) :=
    Finset.sum_congr rfl (fun r _ => (stretchTerm_ld x0 x1 x2 ![0, 1536, 0] ![0, 0, 1536] ![0, 1536] _ _ _ 1536 (by norm_num)
      rfl rfl rfl rfl rfl rfl rfl rfl b d r).trans (hg 1536 r (by norm_num)))
  have h13 : (∑ r : Fin 128, stretchTerm (View.ld x0 r0_39) (View.ld x1 r0_40) (View.ld x2 r0_41) b d r)
      = ∑ r : Fin 128, g (128 * 13 + r.val) :=
    Finset.sum_congr rfl (fun r _ => (stretchTerm_ld x0 x1 x2 ![0, 1664, 0] ![0, 0, 1664] ![0, 1664] _ _ _ 1664 (by norm_num)
      rfl rfl rfl rfl rfl rfl rfl rfl b d r).trans (hg 1664 r (by norm_num)))
  have h14 : (∑ r : Fin 128, stretchTerm (View.ld x0 r0_42) (View.ld x1 r0_43) (View.ld x2 r0_44) b d r)
      = ∑ r : Fin 128, g (128 * 14 + r.val) :=
    Finset.sum_congr rfl (fun r _ => (stretchTerm_ld x0 x1 x2 ![0, 1792, 0] ![0, 0, 1792] ![0, 1792] _ _ _ 1792 (by norm_num)
      rfl rfl rfl rfl rfl rfl rfl rfl b d r).trans (hg 1792 r (by norm_num)))
  have h15 : (∑ r : Fin 128, stretchTerm (View.ld x0 r0_45) (View.ld x1 r0_46) (View.ld x2 r0_47) b d r)
      = ∑ r : Fin 128, g (128 * 15 + r.val) :=
    Finset.sum_congr rfl (fun r _ => (stretchTerm_ld x0 x1 x2 ![0, 1920, 0] ![0, 0, 1920] ![0, 1920] _ _ _ 1920 (by norm_num)
      rfl rfl rfl rfl rfl rfl rfl rfl b d r).trans (hg 1920 r (by norm_num)))
  have hsum : (∑ l : Fin 2048, blockTerm x0 x1 x2 b d l) = ∑ c ∈ Finset.range 16, ∑ r : Fin 128, g (128 * c + r.val) := by
    rw [← Cert.Lib.SumBlocks.sum_fin_mul_blocks g 16 128]
    exact Finset.sum_congr rfl (fun l _ => by simp only [g]; rw [dif_pos l.isLt])
  rw [out_eq_chunks, View.canon_unit_zero hz]
  simp only [chunk_at]
  rw [h0, h1, h2, h3, h4, h5, h6, h7, h8, h9, h10, h11, h12, h13, h14, h15, hsum]
  have hz0 : (k0_pay2 (F := Ideal)) (ix2 b d) = 0 := Ideal.ofBits_zero_f32
  rw [hz0]
  simp only [Finset.sum_range_succ, Finset.sum_range_zero]

end Cert.Body

end
-- ==== Proof.ArrayValue.lean ====
/-
  From the block each grid point leaves to the whole output array after the run.

  The grid has two points. Point `t` stages batch rows `8 t … 8 t + 7` of the padded embeddings, the edge weights and
  the gates, and writes back batch rows `8 t … 8 t + 7` of the result. The body's block value at a row and a feature is
  the sum over the sequence of the positions' gated blends, and a blend reads only its own batch row; so the block
  point `t` leaves is rows `8 t … 8 t + 7` of ONE function `Gk` of the three whole staged arrays. The two blocks are
  disjoint and cover the sixteen rows, hence the array after the run is `Gk` of the staged arrays, and the argument
  arrays, which no window stages, are as launched.
-/
import proofs.«121150_j77670188581209_2_alg».proof.Proof.Gen.KernelIdeal.Frame
import proofs.«121150_j77670188581209_2_alg».proof.Proof.KernelSpec
import proofs.«121150_j77670188581209_2_alg».proof.Proof.BlockValue
import Idealize.ShloMosaic.Lib.Pipeline.Value

noncomputable section

open scoped BigOperators

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## After the frame run -/

/-- After the frame run the output array is what the pipeline's points leave in it. -/
theorem post3 (r : PUnit × MemSt nD τ sig (Elt Ideal)) (h : Pipeline.FramePost cfgs (dats m) 0 (V m) r) (c : Dev nD) :
    r.2.mem ((c : Thread nD τ).loc main_v52) = (dats m 0 c).arrAt 3 cfg0.N :=
  (h c).1 3

/-- No window stages an argument array and no host operation writes it: it is as launched. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-! ## One block -/

/-- A block whose three staged arrays are rows `8 T … 8 T + 7` of the whole arrays holds, after the body, rows
    `8 T … 8 T + 7` of the whole result: the blends only read the block's own batch row. -/
theorem block_is_Gk (A0 : S16x2064x256.Idx → EReal) (A1 : S16x16x2048.Idx → EReal) (A2 : S16x2048.Idx → EReal)
    (x0 : Vec Ideal S8x2064x256 .f32) (x1 : Vec Ideal S8x16x2048 .f32) (x2 : Vec Ideal S8x2048 .f32) (T : Fin 2)
    (hx0 : ∀ (b : Fin 8) (p : Fin 2064) (d : Fin 256), x0 (ix3 b p d) = A0 (ix3 (⟨8 * T.val + b.val, by omega⟩ : Fin 16) p d))
    (hx1 : ∀ (b : Fin 8) (j : Fin 16) (l : Fin 2048), x1 (ix3 b j l) = A1 (ix3 (⟨8 * T.val + b.val, by omega⟩ : Fin 16) j l))
    (hx2 : ∀ (b : Fin 8) (l : Fin 2048), x2 (ix2 b l) = A2 (ix2 (⟨8 * T.val + b.val, by omega⟩ : Fin 16) l))
    (b : Fin 8) (d : Fin 256) :
    out0_3 x0 x1 x2 (ix2 b d) = Gk A0 A1 A2 (ix2 (⟨8 * T.val + b.val, by omega⟩ : Fin 16) d) := by
  rw [Cert.Body.out_at]
  show _ = ∑ l : Fin 2048, arrTerm A0 A1 A2 (⟨8 * T.val + b.val, by omega⟩ : Fin 16) d l
  refine Finset.sum_congr rfl fun l _ => ?_
  unfold Cert.Body.blockTerm arrTerm
  simp only [hx0, hx1, hx2]

/-! ## The index maps -/

/-- The printed index maps, decided over the grid: every window's block index is the point on the batch axis and
    zero on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## What a point writes back -/

/-- Input window 0's block at point `t` holds batch rows `8 t … 8 t + 7` of the padded embeddings. -/
theorem iblk0_at (c : Dev nD) (t : Fin cfg0.N) (T : Fin 2) (hT : T.val = t.val) (b : Fin 8) (p : Fin 2064) (d : Fin 256) :
    (iblk m c 0 t : Vec Ideal S8x2064x256 .f32) (ix3 b p d)
      = V m c main_v43 (ix3 (⟨8 * T.val + b.val, by omega⟩ : Fin 16) p d) := by
  obtain ⟨e0, e1, e2, -⟩ := idx_facts t
  show V m c main_v43 (((cfg0.win 0).blk t).view.emb (ix3 b p d)) = _
  congr 1
  funext a; apply Fin.ext
  match a with
  | ⟨0, _⟩ => show win0_0.index t (0 : Fin 3) * 8 + 1 * b.val = 8 * T.val + b.val; omega
  | ⟨1, _⟩ => show win0_0.index t (1 : Fin 3) * 2064 + 1 * p.val = p.val; omega
  | ⟨2, _⟩ => show win0_0.index t (2 : Fin 3) * 256 + 1 * d.val = d.val; omega

/-- Input window 1's block at point `t` holds batch rows `8 t … 8 t + 7` of the edge weights. -/
theorem iblk1_at (c : Dev nD) (t : Fin cfg0.N) (T : Fin 2) (hT : T.val = t.val) (b : Fin 8) (j : Fin 16) (l : Fin 2048) :
    (iblk m c 1 t : Vec Ideal S8x16x2048 .f32) (ix3 b j l)
      = V m c main_v35 (ix3 (⟨8 * T.val + b.val, by omega⟩ : Fin 16) j l) := by
  obtain ⟨-, -, -, e0, e1, e2, -⟩ := idx_facts t
  show V m c main_v35 (((cfg0.win 1).blk t).view.emb (ix3 b j l)) = _
  congr 1
  funext a; apply Fin.ext
  match a with
  | ⟨0, _⟩ => show win0_1.index t (0 : Fin 3) * 8 + 1 * b.val = 8 * T.val + b.val; omega
  | ⟨1, _⟩ => show win0_1.index t (1 : Fin 3) * 16 + 1 * j.val = j.val; omega
  | ⟨2, _⟩ => show win0_1.index t (2 : Fin 3) * 2048 + 1 * l.val = l.val; omega

/-- Input window 2's block at point `t` holds batch rows `8 t … 8 t + 7` of the gates. -/
theorem iblk2_at (c : Dev nD) (t : Fin cfg0.N) (T : Fin 2) (hT : T.val = t.val) (b : Fin 8) (l : Fin 2048) :
    (iblk m c 2 t : Vec Ideal S8x2048 .f32) (ix2 b l)
      = V m c main_v51 (ix2 (⟨8 * T.val + b.val, by omega⟩ : Fin 16) l) := by
  obtain ⟨-, -, -, -, -, -, e0, e1, -⟩ := idx_facts t
  show V m c main_v51 (((cfg0.win 2).blk t).view.emb (ix2 b l)) = _
  congr 1
  funext a; apply Fin.ext
  match a with
  | ⟨0, _⟩ => show win0_2.index t (0 : Fin 2) * 8 + 1 * b.val = 8 * T.val + b.val; omega
  | ⟨1, _⟩ => show win0_2.index t (1 : Fin 2) * 2048 + 1 * l.val = l.val; omega

/-- The output window's block at point `t` is batch rows `8 t … 8 t + 7` of the result array. -/
theorem emb3_at (t : Fin cfg0.N) (T : Fin 2) (hT : T.val = t.val) (b : Fin 8) (d : Fin 256) :
    (((cfg0.win 3).blk t).view.emb (ix2 b d) : S16x256.Idx) = ix2 (⟨8 * T.val + b.val, by omega⟩ : Fin 16) d := by
  obtain ⟨-, -, -, -, -, -, -, -, e0, e1⟩ := idx_facts t
  funext a; apply Fin.ext
  match a with
  | ⟨0, _⟩ => show win0_3.index t (0 : Fin 2) * 8 + 1 * b.val = 8 * T.val + b.val; omega
  | ⟨1, _⟩ => show win0_3.index t (1 : Fin 2) * 256 + 1 * d.val = d.val; omega

/-- What the body leaves at point `t`, element by element of the block: the whole result at the block's place. -/
theorem blockwise (c : Dev nD) (t : Fin cfg0.N) (j : S8x256.Idx) :
    out0_3 (iblk m c 0 t) (iblk m c 1 t) (iblk m c 2 t) j
      = Gk (V m c main_v43) (V m c main_v35) (V m c main_v51) (((cfg0.win 3).blk t).view.emb j) := by
  have hN : t.val < 2 := by
    have h : t.val < grid0.N := t.isLt
    rw [N_0] at h; exact h
  obtain ⟨b, d, rfl⟩ : ∃ (b : Fin 8) (d : Fin 256), j = ix2 b d := ⟨j 0, j 1, eq_ix2 j⟩
  rw [emb3_at t ⟨t.val, hN⟩ rfl b d]
  exact block_is_Gk _ _ _ _ _ _ ⟨t.val, hN⟩ (iblk0_at m c t _ rfl) (iblk1_at m c t _ rfl) (iblk2_at m c t _ rfl) b d

/-- WHAT POINT `t` WRITES BACK is block `t` of the whole result. -/
theorem flushed3_eq (c : Dev nD) (t : Fin cfg0.N) :
    (dats m 0 c).flushed 3 t
      = ((cfg0.win 3).blk t).view.read (Elt Ideal) (Gk (V m c main_v43) (V m c main_v35) (V m c main_v51)) := by
  show (cfg0.win 3).cut (grid0.coords t) ((dats m 0 c).after 3 t) = _
  rw [after0_3]
  funext j
  exact blockwise m c t j

/-! ## The blocks cover the array -/

/-- An index of the array is in point `t`'s block iff each coordinate is in the block's range on its axis. -/
theorem mem_blk3 (t : Fin cfg0.N) (i : S16x256.Idx) :
    i ∈ ((cfg0.win 3).blk t).view.set ↔ ∀ a : Fin 2, win0_3.index t a * S8x256.size a ≤ (i a).val
      ∧ (i a).val < win0_3.index t a * S8x256.size a + S8x256.size a := by
  show i ∈ ((View.whole main_v52).slice (win0_3.rect t)).set ↔ _
  rw [View.set_slice_whole, Rect.mem_set_unit]
  exact Iff.rfl

/-- Row `B` of the result is in the block of point `B / 8`. -/
theorem covered3 (i : S16x256.Idx) :
    ∃ t : Fin cfg0.N, (cfg0.win 3).flush t = true ∧ i ∈ ((cfg0.win 3).blk t).view.set := by
  have hi0 : (i 0).val < 16 := (i 0).isLt
  have hi1 : (i 1).val < 256 := (i 1).isLt
  obtain ⟨t, ht⟩ : ∃ t : Fin cfg0.N, t.val = (i 0).val / 8 :=
    ⟨⟨(i 0).val / 8, by show (i 0).val / 8 < grid0.N; rw [N_0]; omega⟩, rfl⟩
  obtain ⟨-, -, -, -, -, -, -, -, e0, e1⟩ := idx_facts t
  refine ⟨t, flush0_3 t, ?_⟩
  rw [mem_blk3]
  intro a
  match a with
  | ⟨0, _⟩ =>
    show win0_3.index t (0 : Fin 2) * 8 ≤ (i 0).val ∧ (i 0).val < win0_3.index t (0 : Fin 2) * 8 + 8
    omega
  | ⟨1, _⟩ =>
    show win0_3.index t (1 : Fin 2) * 256 ≤ (i 1).val ∧ (i 1).val < win0_3.index t (1 : Fin 2) * 256 + 256
    omega

/-- THE ARRAY after the run: the whole result, as one function of the three staged arrays. -/
theorem final3 (c : Dev nD) :
    (dats m 0 c).arrAt 3 cfg0.N = Gk (V m c main_v43) (V m c main_v35) (V m c main_v51) :=
  (dats m 0 c).arrAt_eq_of_cover 3 _ (fun t _ => flushed3_eq m c t) covered3

/-! ## The run, read -/

/-- The frame run re-posted: the output array at its function of the staged arrays, the arguments unchanged. -/
theorem run_kernel : θ_run defs (onTc (τ := τ) (main (F := Ideal))) ⟨m, fun _ => 0, ρ⟩ fun r => ∀ c : Dev nD,
      r.2.mem ((c : Thread nD τ).loc main_v52) = Gk (V m c main_v43) (V m c main_v35) (V m c main_v51)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post3 m r h c).trans (final3 m c),
      kept_main_arg0 m r h c,
      kept_main_arg1 m r h c,
      kept_main_arg2 m r h c,
      kept_main_arg3 m r h c⟩)
    (run_main m ρ)

end Cert.KernelValue

end
-- ==== Proof.HostSide.lean ====
/-
  What the three arrays staged by the kernel's one region hold when the region is entered, read one element at a
  time: the padded token embeddings, the transposed edge weights and the flattened gates. Each is a layout change
  (a pad by eight zero rows at either end of the sequence axis, a drop of a unit axis followed by a swap of two axes,
  a drop of a unit axis) of an array the program gathers from its arguments exactly as the reference program does.
-/
import proofs.«121150_j77670188581209_2_alg».proof.Proof.Gen.KernelIdeal.Frame
import proofs.«121150_j77670188581209_2_alg».proof.Proof.Gen.ReferenceIdeal.Read
import Idealize.ShloMosaic.Lib.StableHlo.Run
import Idealize.ShloMosaic.Lib.Tactic
import Idealize.ShloMosaic.Lib.KernelVsHost
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.HostSide

open Cert.KernelIdeal Cert.KernelIdeal.Gen Idealize.ShloMosaic Idealize.ShloMosaic.TcCoe Idealize.ShloMosaic.ValueIdx
open Idealize.SL.Sem Idealize.ShloMosaic.StableHlo

variable (m : (ℓ : Loc Cert.KernelIdeal.nD Cert.KernelIdeal.τ Cert.KernelIdeal.sig) → Buf (Elt Ideal) ℓ)
  (c : Dev Cert.KernelIdeal.nD)

/-! ## The three arrays as terms over the arguments -/

/-- The padded embeddings as the region finds them: the gathered embeddings, padded on the sequence axis by eight rows
    at either end with the integer 0 converted to a float. -/
theorem V_main_v43_eq :
    (V m c main_v43 : S16x2064x256.Idx → EReal)
      = pad S16x2064x256 ![0, 8, 0] ![0, 8, 0] ![0, 0, 0]
          (Cert.ReferenceIdeal.Read.val_main_v50 (F := Ideal)
            (m ((c : Thread nD τ).loc main_arg0)) (m ((c : Thread nD τ).loc main_arg1)))
          (sitofp (F := Ideal) .f32 (constantI S_ 32 0#32))
          pads_S16x2048x256_S16x2064x256_000_880_000 Cert.KernelIdeal.Gen.h_S_ := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The edge weights as the region finds them: the gathered weights with their unit axis dropped, then the position
    and neighbour axes swapped. -/
theorem V_main_v35_eq :
    (V m c main_v35 : S16x16x2048.Idx → EReal)
      = transpose S16x16x2048 [0, 2, 1]
          (shapeCast S16x2048x16 (Cert.ReferenceIdeal.Read.val_main_v40 (F := Ideal)
            (m ((c : Thread nD τ).loc main_arg0)) (m ((c : Thread nD τ).loc main_arg2))) shapeCasts_S16x2048x16x1_S16x2048x16)
          transposes_S16x2048x16_S16x16x2048_0_2_1 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The gates as the region finds them: the gathered gates with their unit axis dropped. -/
theorem V_main_v51_eq :
    (V m c main_v51 : S16x2048.Idx → EReal)
      = shapeCast S16x2048 (Cert.ReferenceIdeal.Read.val_main_v57 (F := Ideal)
          (m ((c : Thread nD τ).loc main_arg0)) (m ((c : Thread nD τ).loc main_arg3))) shapeCasts_S16x2048x1_S16x2048 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-! ## Read at an index -/

/-- The integer 0 converted to a float is 0. -/
theorem pad_value_zero :
    (sitofp (F := Ideal) .f32 (constantI S_ 32 0#32) : S_.Idx → EReal) (Shape.Idx.first Cert.KernelIdeal.Gen.h_S_) = 0 := by
  show (((0#32 : BitVec 32).toInt : ℝ) : EReal) = 0
  simp

/-- The padded embeddings at (b, p, d): the gathered embedding of position p − 8 where that position exists, zero in
    the eight rows before the sequence and the eight after it. -/
theorem rn_pad_at (b : Fin 16) (p : Fin 2064) (d : Fin 256) :
    (V m c main_v43 : S16x2064x256.Idx → EReal) (ix3 b p d)
      = if h : 8 ≤ p.val ∧ p.val < 2056 then
          Cert.ReferenceIdeal.Read.val_main_v50 (F := Ideal) (m ((c : Thread nD τ).loc main_arg0))
            (m ((c : Thread nD τ).loc main_arg1)) (ix3 b ⟨p.val - 8, by omega⟩ d)
        else 0 := by
  rw [V_main_v43_eq m c]
  by_cases h : 8 ≤ p.val ∧ p.val < 2056
  · rw [dif_pos h]
    exact pad_apply_of_inside (s := S16x2048x256) (t := S16x2064x256) ![0, 8, 0] ![0, 8, 0] ![0, 0, 0] _ _ pads_S16x2048x256_S16x2064x256_000_880_000
      Cert.KernelIdeal.Gen.h_S_ (ix3 b p d) (ix3 b (⟨p.val - 8, by omega⟩ : Fin 2048) d) (fun a => match a with
        | ⟨0, _⟩ => by show b.val = 0 + b.val * (0 + 1); omega
        | ⟨1, _⟩ => by show p.val = 8 + (p.val - 8) * (0 + 1); omega
        | ⟨2, _⟩ => by show d.val = 0 + d.val * (0 + 1); omega)
  · rw [dif_neg h]
    refine (pad_apply_of_not_inside (s := S16x2048x256) (t := S16x2064x256) ![0, 8, 0] ![0, 8, 0] ![0, 0, 0] _ _ pads_S16x2048x256_S16x2064x256_000_880_000
      Cert.KernelIdeal.Gen.h_S_ (ix3 b p d) (1 : Fin 3) ?_).trans pad_value_zero
    show ¬(8 ≤ p.val ∧ (p.val - 8) % (0 + 1) = 0 ∧ (p.val - 8) / (0 + 1) < 2048)
    omega

/-- The edge weights at (b, j, l): the gathered weight of the edge from position l to its j-th neighbour. -/
theorem ean_at (b : Fin 16) (j : Fin 16) (l : Fin 2048) :
    (V m c main_v35 : S16x16x2048.Idx → EReal) (ix3 b j l)
      = Cert.ReferenceIdeal.Read.val_main_v40 (F := Ideal) (m ((c : Thread nD τ).loc main_arg0))
          (m ((c : Thread nD τ).loc main_arg2)) (ix4 b l j (0 : Fin 1)) := by
  rw [V_main_v35_eq m c]
  refine (transpose_ix3_021_apply _ transposes_S16x2048x16_S16x16x2048_0_2_1 b j l).trans ?_
  refine shapeCast_apply _ shapeCasts_S16x2048x16x1_S16x2048x16 (ix3 b l j) (ix4 b l j (0 : Fin 1)) ?_
  rw [Shape.rowMajor_val_four, Shape.rowMajor_val_three]
  show ((b.val * 2048 + l.val) * 16 + j.val) * 1 + 0 = (b.val * 2048 + l.val) * 16 + j.val
  omega

/-- The gates at (b, l): the gathered gate of position l. -/
theorem nn_at (b : Fin 16) (l : Fin 2048) :
    (V m c main_v51 : S16x2048.Idx → EReal) (ix2 b l)
      = Cert.ReferenceIdeal.Read.val_main_v57 (F := Ideal) (m ((c : Thread nD τ).loc main_arg0))
          (m ((c : Thread nD τ).loc main_arg3)) (ix3 b l (0 : Fin 1)) := by
  rw [V_main_v51_eq m c]
  refine shapeCast_apply _ shapeCasts_S16x2048x1_S16x2048 (ix2 b l) (ix3 b l (0 : Fin 1)) ?_
  rw [Shape.rowMajor_val_three, Shape.rowMajor_val_two]
  show (b.val * 2048 + l.val) * 1 + 0 = b.val * 2048 + l.val
  omega

end Cert.HostSide

end
-- ==== Proof.KernelBridge.lean ====
/-
  The kernel's result function of its three staged arrays is the shared specification of the three gathered arrays.

  Position l's own embedding sits in row l + 8 of the padded array, its j-th neighbour's in row l + off j, which is a
  zero row exactly when the neighbour falls off either end of the sequence; the staged edge weights are the gathered
  ones with the position and neighbour axes swapped, and the staged gates are the gathered ones. So each position's
  blend over the staged arrays is the specification's term over the gathered arrays, and so are their sums.
-/
import proofs.«121150_j77670188581209_2_alg».proof.Proof.HostSide
import proofs.«121150_j77670188581209_2_alg».proof.Proof.KernelSpec
import proofs.«121150_j77670188581209_2_alg».proof.Proof.Spec
import proofs.«121150_j77670188581209_2_alg».proof.Proof.Gen.ReferenceIdeal.Read
import Idealize.ShloMosaic.Lib.ValueIdx

set_option maxRecDepth 16384

noncomputable section

open scoped BigOperators

namespace Cert.KernelBridge

open Cert.KernelIdeal Cert.KernelIdeal.Gen Idealize.ShloMosaic Idealize.ShloMosaic.TcCoe Idealize.ShloMosaic.ValueIdx
open Idealize.SL.Sem

variable (m : (ℓ : Loc Cert.KernelIdeal.nD Cert.KernelIdeal.τ Cert.KernelIdeal.sig) → Buf (Elt Ideal) ℓ)
  (c : Dev Cert.KernelIdeal.nD)

/-- The kernel's result function at the arrays the region finds is the specification at the gathered arrays. -/
theorem kernel_is_G :
    Cert.KernelValue.Gk (V m c main_v43) (V m c main_v35) (V m c main_v51)
      = Cert.Spec.G
          (Cert.ReferenceIdeal.Read.val_main_v50 (F := Ideal) (m ((c : Thread nD τ).loc main_arg0)) (m ((c : Thread nD τ).loc main_arg1)))
          (Cert.ReferenceIdeal.Read.val_main_v40 (F := Ideal) (m ((c : Thread nD τ).loc main_arg0)) (m ((c : Thread nD τ).loc main_arg2)))
          (Cert.ReferenceIdeal.Read.val_main_v57 (F := Ideal) (m ((c : Thread nD τ).loc main_arg0)) (m ((c : Thread nD τ).loc main_arg3))) := by
  funext i
  obtain ⟨B, d, rfl⟩ : ∃ B d, i = ix2 B d := ⟨i 0, i 1, eq_ix2 i⟩
  unfold Cert.KernelValue.Gk Cert.Spec.G
  refine Finset.sum_congr rfl fun l _ => ?_
  show Cert.KernelValue.arrTerm _ _ _ B d l = Cert.Spec.term _ _ _ B d l
  unfold Cert.KernelValue.arrTerm Cert.Spec.term Cert.Spec.best
  rw [Cert.HostSide.nn_at m c B l]
  refine congrArg₂ (· + ·) (congrArg (_ * ·) (Finset.fold_congr fun j _ => ?_)) (congrArg (_ * ·) ?_)
  · -- neighbour j: row l + off j of the padded array, and the swapped weight
    rw [Cert.HostSide.rn_pad_at m c B _ d, Cert.HostSide.ean_at m c B j l]
    rfl
  · -- the position's own row, l + 8
    rw [Cert.HostSide.rn_pad_at m c B _ d,
      dif_pos (show 8 ≤ l.val + 8 ∧ l.val + 8 < 2056 from ⟨by omega, by omega⟩)]
    exact congrArg (fun q : Fin 2048 => Cert.ReferenceIdeal.Read.val_main_v50 (F := Ideal) (m ((c : Thread nD τ).loc main_arg0))
      (m ((c : Thread nD τ).loc main_arg1)) (ix3 B q d)) (Fin.ext (show l.val + 8 - 8 = l.val by omega))

end Cert.KernelBridge

end
-- ==== Proof.Neighbours.lean ====
/-
  The neighbour embeddings the reference gathers are the specification's `nb`.

  The reference pads the token array by eight zeros at each end of the sequence axis, reads it at the positions
  `l + off j` (an array built from iotas: `l` plus the concatenation of `0 … 7` and `9 … 16`), and uses the token ids read
  there as the rows of the embedding table to gather; the token's own embedding is the table gathered at the token ids
  themselves. Every index array first goes through the negative-index wrap (a negative word has the axis size added),
  and a gather clamps each start index into range. This module reads the three gathers at an index, computes the
  position words, reads the pad inside and outside the tokens' span, and concludes: where `l + off j` falls inside the
  span both gathers read the table at the same row, the one the wrapped id of the token at `l + off j − 8` names; where
  it falls outside, the id is the pad word zero, its row is row zero, and row zero of the table is the zero vector
  (the hypothesis `hz`).
-/
import proofs.«121150_j77670188581209_2_alg».proof.Proof.Gen.ReferenceIdeal.Read
import proofs.«121150_j77670188581209_2_alg».proof.Proof.Spec
import Idealize.ShloMosaic.Lib.KernelVsHost
import Idealize.ShloMosaic.Lib.ValueIdx

noncomputable section

namespace Cert.Neighbours

open Cert.ReferenceIdeal Cert.ReferenceIdeal.Gen Cert.ReferenceIdeal.Read Idealize.ShloMosaic Idealize.ShloMosaic.ValueIdx

/-! ## The three gathers read at an index

StableHLO's gather reads the operand at the start index — the word the start-indices array holds for the result's
batch coordinates, read signed and clamped so that the slice fits — plus the result's offset coordinate on the axis
that is not collapsed. -/

section Gathers
variable {α : Type}

/-- The table row a start word names: the word read signed, clamped into the table's 8000 rows. -/
def row (w : BitVec 32) : Fin 8000 := ⟨min w.toInt.toNat 7999, by omega⟩

/-- The column of the padded token array a start word names: read signed, clamped into its 2064 columns. -/
def col (w : BitVec 32) : Fin 2064 := ⟨min w.toInt.toNat 2063, by omega⟩

local notation "G33" => gather_S8000x256_S16x2048x16x1_S16x2048x16x256_3_0_n_n_0_3_1256
local notation "G50" => gather_S8000x256_S16x2048x1_S16x2048x256_2_0_n_n_0_2_1256
local notation "G18" => gather_S16x2064_S2048x16x1_S16x2048x16_0_1_n_n_1_2_161

/-- A row gather of a [8000, 256] table at start indices [16, 2048, 16, 1]: element `(b, l, j, d)` is the table at
    the row the word at `(b, l, j, 0)` names (signed, clamped to the last row), column `d`. -/
theorem gather_rows4 (x : S8000x256.Idx → α) (idx : IVec S16x2048x16x1 32) (b : Fin 16) (l : Fin 2048) (j : Fin 16) (d : Fin 256) :
    Host.gather G33 x idx (ix4 b l j d)
      = x (ix2 (row (idx (ix4 b l j (0 : Fin 1)))) d) := by
  unfold Host.gather
  refine congrArg x (funext fun a => Fin.ext ?_)
  match a with
  | ⟨0, _⟩ =>
    show GatherDims.start G33 (ix4 b l j d) idx 0 + GatherDims.batchCoord G33 (ix4 b l j d) 0 + GatherDims.offCoord G33 (ix4 b l j d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (GatherDims.startIndexMap G33) from List.mem_singleton.mpr rfl)]
    have hsi : GatherDims.siIdx G33 (ix4 b l j d) ⟨List.idxOf (0 : Fin 2) (GatherDims.startIndexMap G33),
        List.idxOf_lt_length_iff.2 (List.mem_singleton.mpr rfl)⟩ = ix4 b l j (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show GatherDims.start G33 (ix4 b l j d) idx 1 + GatherDims.batchCoord G33 (ix4 b l j d) 1 + GatherDims.offCoord G33 (ix4 b l j d) 1 = _
    have h1 : (1 : Fin 2) ∉ (GatherDims.startIndexMap G33) := by decide
    have h2 : (1 : Fin 2) ∈ GatherDims.sKept G33 :=
      (GatherDims.mem_sKept _ _).mpr ⟨by decide, List.not_mem_nil⟩
    rw [GatherDims.batchCoord_eq_zero _ _ _ List.not_mem_nil]
    unfold GatherDims.start GatherDims.offCoord
    rw [dif_neg h1, dif_pos h2, Nat.zero_add]
    rfl

/-- The same row gather at start indices [16, 2048, 1]: element `(b, l, d)` is the table at the row the word at
    `(b, l, 0)` names, column `d`. -/
theorem gather_rows3 (x : S8000x256.Idx → α) (idx : IVec S16x2048x1 32) (b : Fin 16) (l : Fin 2048) (d : Fin 256) :
    Host.gather G50 x idx (ix3 b l d)
      = x (ix2 (row (idx (ix3 b l (0 : Fin 1)))) d) := by
  unfold Host.gather
  refine congrArg x (funext fun a => Fin.ext ?_)
  match a with
  | ⟨0, _⟩ =>
    show GatherDims.start G50 (ix3 b l d) idx 0 + GatherDims.batchCoord G50 (ix3 b l d) 0 + GatherDims.offCoord G50 (ix3 b l d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (GatherDims.startIndexMap G50) from List.mem_singleton.mpr rfl)]
    have hsi : GatherDims.siIdx G50 (ix3 b l d) ⟨List.idxOf (0 : Fin 2) (GatherDims.startIndexMap G50),
        List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi]
    rfl
  | ⟨1, _⟩ =>
    show GatherDims.start G50 (ix3 b l d) idx 1 + GatherDims.batchCoord G50 (ix3 b l d) 1 + GatherDims.offCoord G50 (ix3 b l d) 1 = _
    have h1 : (1 : Fin 2) ∉ (GatherDims.startIndexMap G50) := by decide
    have h2 : (1 : Fin 2) ∈ GatherDims.sKept G50 :=
      (GatherDims.mem_sKept _ _).mpr ⟨by decide, List.not_mem_nil⟩
    rw [GatherDims.batchCoord_eq_zero _ _ _ List.not_mem_nil]
    unfold GatherDims.start GatherDims.offCoord
    rw [dif_neg h1, dif_pos h2, Nat.zero_add]
    rfl

/-- A column gather of a [16, 2064] array at start indices [2048, 16, 1] (whole columns, sixteen rows each): element
    `(b, l, j)` is the array at row `b` and the column the word at `(l, j, 0)` names (signed, clamped to the last
    column). -/
theorem gather_cols (x : S16x2064.Idx → α) (idx : IVec S2048x16x1 32) (b : Fin 16) (l : Fin 2048) (j : Fin 16) :
    Host.gather G18 x idx (ix3 b l j)
      = x (ix2 b (col (idx (ix3 l j (0 : Fin 1))))) := by
  unfold Host.gather
  refine congrArg x (funext fun a => Fin.ext ?_)
  match a with
  | ⟨0, _⟩ =>
    show GatherDims.start G18 (ix3 b l j) idx 0 + GatherDims.batchCoord G18 (ix3 b l j) 0 + GatherDims.offCoord G18 (ix3 b l j) 0 = _
    have h1 : (0 : Fin 2) ∉ (GatherDims.startIndexMap G18) := by decide
    have h2 : (0 : Fin 2) ∈ GatherDims.sKept G18 :=
      (GatherDims.mem_sKept _ _).mpr ⟨by decide, List.not_mem_nil⟩
    rw [GatherDims.batchCoord_eq_zero _ _ _ List.not_mem_nil]
    unfold GatherDims.start GatherDims.offCoord
    rw [dif_neg h1, dif_pos h2, Nat.zero_add]
    rfl
  | ⟨1, _⟩ =>
    show GatherDims.start G18 (ix3 b l j) idx 1 + GatherDims.batchCoord G18 (ix3 b l j) 1 + GatherDims.offCoord G18 (ix3 b l j) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (GatherDims.startIndexMap G18) from List.mem_singleton.mpr rfl)]
    have hsi : GatherDims.siIdx G18 (ix3 b l j) ⟨List.idxOf (1 : Fin 2) (GatherDims.startIndexMap G18),
        List.idxOf_lt_length_iff.2 (List.mem_singleton.mpr rfl)⟩ = ix3 l j (0 : Fin 1) := by
      funext c; refine Fin.ext ?_
      match c with
      | ⟨0, _⟩ => rfl
      | ⟨1, _⟩ => rfl
      | ⟨2, _⟩ => rfl
    rw [hsi]
    rfl

end Gathers

/-! ## Words -/

section Words

/-- A natural below 2³¹ read back signed off its 32-bit word is itself. -/
theorem toInt_ofNat_small (n : Nat) (h : n < 2 ^ 31) : (BitVec.ofNat 32 n).toInt = (n : Int) := by
  have e : (BitVec.ofNat 32 n).toNat = n := by
    rw [BitVec.toNat_ofNat]; exact Nat.mod_eq_of_lt (by omega)
  rw [BitVec.toInt_eq_toNat_of_lt (by rw [e]; omega), e]

/-- Such a word is not negative: the signed compare with zero answers the bit `0`. -/
theorem cmpi_slt_zero_ofNat_small (n : Nat) (h : n < 2 ^ 31) :
    IntOp.cmpi .slt (BitVec.ofNat 32 n) 0#32 = 0#1 := by
  unfold IntOp.cmpi
  have : (BitVec.ofNat 32 n).slt 0#32 = false := by
    unfold BitVec.slt
    rw [toInt_ofNat_small n h]
    simp
  simp only [this]
  rfl

/-- The negative-index wrap of an axis of `N` entries: a negative word has `N` added. -/
def wrap (N w : BitVec 32) : BitVec 32 := Scalar.select (IntOp.cmpi .slt w 0#32) (IntOp.addi w N) w

theorem wrap_ofNat_small (N : BitVec 32) (n : Nat) (h : n < 2 ^ 31) : wrap N (BitVec.ofNat 32 n) = BitVec.ofNat 32 n := by
  unfold wrap
  rw [cmpi_slt_zero_ofNat_small n h]
  exact select_zero _ _

end Words

/-! ## The positions the neighbour gather reads -/

section Positions

open Cert.Spec (off off_lt)

/-- The offsets array `concatenate (iota 8) (9 + iota 8)`: entry `j` is `off j`. -/
theorem offsets_apply (j : Fin 16) : val_main_v5 (F := Ideal) (ix1 j) = BitVec.ofNat 32 (off j) := by
  unfold val_main_v5 off
  by_cases hj : j.val < 8
  · rw [if_pos hj]
    refine (concatenate_pair_apply_left (t := S16) (s₁ := S8) (s₂ := S8) (0 : Fin 1) _ _ concatenates_S8_S8_S16_d0 (ix1 j) rfl
      (ix1 (⟨j.val, hj⟩ : Fin 8)) ?_).trans ?_
    · intro b; obtain rfl : b = 0 := Subsingleton.elim _ _; rfl
    · rfl
  · rw [if_neg hj]
    have hj16 : j.val < 16 := j.isLt
    refine (concatenate_pair_apply_right (t := S16) (s₁ := S8) (s₂ := S8) (0 : Fin 1) _ _ concatenates_S8_S8_S16_d0 (ix1 j) rfl rfl
      (ix1 (⟨j.val - 8, by omega⟩ : Fin 8)) ?_ ?_).trans ?_
    · intro b hb; exact absurd (Subsingleton.elim _ _) hb
    · show (j.val - 8) + 8 = j.val; omega
    · rw [val_main_v4_apply, val_main_v3_apply, val_main_c_0_apply, val_main_v2_apply]
      show IntOp.addi (BitVec.ofNat 32 9) (BitVec.ofNat 32 (j.val - 8)) = BitVec.ofNat 32 (j.val + 1)
      unfold IntOp.addi
      rw [← BitVec.ofNat_add]
      congr 1; omega

/-- The position array `l + offsets[j]`, after the wrap that never fires: entry `(l, j)` is `l + off j`. -/
theorem position_word (l : Fin 2048) (j : Fin 16) :
    val_main_v16 (F := Ideal) (ix2 l j) = BitVec.ofNat 32 (l.val + off j) := by
  have hl : l.val < 2048 := l.isLt
  have ho := off_lt j
  have h11 : val_main_v11 (F := Ideal) (ix2 l j) = BitVec.ofNat 32 (l.val + off j) := by
    rw [val_main_v11_apply, val_main_v9_apply, val_main_v7_apply, val_main_v6_apply, val_main_v10_apply,
      val_main_v8_apply]
    have e : idx_main_v8 (idx_main_v10 (ix2 l j)) = ix1 j := by
      funext a; obtain rfl : a = 0 := Subsingleton.elim _ _; rfl
    rw [e, offsets_apply]
    show IntOp.addi (BitVec.ofNat 32 l.val) (BitVec.ofNat 32 (off j)) = _
    unfold IntOp.addi
    rw [← BitVec.ofNat_add]
  rw [val_main_v16_apply, val_main_v13_apply, val_main_v12_apply, val_main_c_1_apply, h11,
    cmpi_slt_zero_ofNat_small _ (by omega)]
  exact select_zero _ _

end Positions

/-! ## The gathered neighbour -/

section Neighbour

open Cert.Spec (off off_lt)

/-- The padded token array inside the tokens' span: column `p` holds the token at `p − 8`. -/
theorem padded_inside (x0 : (⟨S16x2048, .i32⟩ : BufTy).Contents (Elt Ideal)) (b : Fin 16) (p : Fin 2064)
    (h : 8 ≤ p.val ∧ p.val < 2056) :
    val_main_v0 (F := Ideal) x0 (ix2 b p) = x0 (ix2 b (⟨p.val - 8, by omega⟩ : Fin 2048)) := by
  unfold val_main_v0
  refine pad_apply_of_inside _ _ _ x0 _ _ _ (ix2 b p) (ix2 b (⟨p.val - 8, by omega⟩ : Fin 2048)) ?_
  intro a
  match a with
  | ⟨0, _⟩ => show b.val = 0 + b.val * (0 + 1); omega
  | ⟨1, _⟩ => show p.val = 8 + (p.val - 8) * (0 + 1); omega

/-- The padded token array outside the tokens' span: the pad word, the integer zero. -/
theorem padded_outside (x0 : (⟨S16x2048, .i32⟩ : BufTy).Contents (Elt Ideal)) (b : Fin 16) (p : Fin 2064)
    (h : ¬(8 ≤ p.val ∧ p.val < 2056)) :
    val_main_v0 (F := Ideal) x0 (ix2 b p) = 0#32 := by
  unfold val_main_v0
  refine (pad_apply_of_not_inside _ _ _ x0 _ _ _ (ix2 b p) (1 : Fin 2) ?_).trans ?_
  · intro hin
    have h1 : 8 ≤ p.val := hin.1
    have h2 : (p.val - 8) / 1 < 2048 := hin.2.2
    exact h ⟨h1, by omega⟩
  · rfl

/-- The neighbour token ids `NX[b, l, j]`: the padded token array at column `l + off j`. -/
theorem neighbour_token (x0 : (⟨S16x2048, .i32⟩ : BufTy).Contents (Elt Ideal)) (b : Fin 16) (l : Fin 2048) (j : Fin 16) :
    val_main_v18 (F := Ideal) x0 (ix3 b l j)
      = val_main_v0 (F := Ideal) x0 (ix2 b (⟨l.val + off j, by have := off_lt j; have := l.isLt; omega⟩ : Fin 2064)) := by
  have hl : l.val < 2048 := l.isLt
  have ho := off_lt j
  unfold val_main_v18
  refine (gather_cols _ _ b l j).trans (congrArg _ ?_)
  have hw : val_main_v17 (F := Ideal) (ix3 l j (0 : Fin 1)) = BitVec.ofNat 32 (l.val + off j) := by
    rw [val_main_v17_apply]
    have e : idx_main_v17 (ix3 l j (0 : Fin 1)) = ix2 l j := by
      funext a
      match a with
      | ⟨0, _⟩ => rfl
      | ⟨1, _⟩ => rfl
    rw [e, position_word]
  have hm : (col (val_main_v17 (F := Ideal) (ix3 l j (0 : Fin 1)))).val = l.val + off j := by
    rw [hw]
    show min (BitVec.ofNat 32 (l.val + off j)).toInt.toNat 2063 = l.val + off j
    rw [toInt_ofNat_small _ (by omega), Int.toNat_natCast]
    omega
  funext a
  match a with
  | ⟨0, _⟩ => rfl
  | ⟨1, _⟩ => exact Fin.ext hm

/-- The start word of the neighbour row gather: the neighbour token id, wrapped. -/
theorem wrapped_neighbour (x0 : (⟨S16x2048, .i32⟩ : BufTy).Contents (Elt Ideal)) (b : Fin 16) (l : Fin 2048) (j : Fin 16) :
    val_main_v32 (F := Ideal) x0 (ix4 b l j (0 : Fin 1)) = wrap 8000#32 (val_main_v18 (F := Ideal) x0 (ix3 b l j)) := by
  rw [val_main_v32_apply]
  have e : idx_main_v32 (ix4 b l j (0 : Fin 1)) = ix3 b l j := by
    funext a
    match a with
    | ⟨0, _⟩ => rfl
    | ⟨1, _⟩ => rfl
    | ⟨2, _⟩ => rfl
  rw [e, val_main_v31_apply, val_main_v28_apply, val_main_v30_apply, val_main_v27_apply, val_main_v29_apply,
    val_main_c_6_apply, val_main_c_7_apply]
  rfl

/-- The start word of the token row gather: the token id, wrapped the same way. -/
theorem wrapped_token (x0 : (⟨S16x2048, .i32⟩ : BufTy).Contents (Elt Ideal)) (b : Fin 16) (p : Fin 2048) :
    val_main_v49 (F := Ideal) x0 (ix3 b p (0 : Fin 1)) = wrap 8000#32 (x0 (ix2 b p)) := by
  rw [val_main_v49_apply]
  have e : idx_main_v49 (ix3 b p (0 : Fin 1)) = ix2 b p := by
    funext a
    match a with
    | ⟨0, _⟩ => rfl
    | ⟨1, _⟩ => rfl
  rw [e, val_main_v48_apply, val_main_v45_apply, val_main_v47_apply, val_main_v44_apply, val_main_v46_apply,
    val_main_c_10_apply, val_main_c_11_apply]
  rfl

end Neighbour

open Cert.ReferenceIdeal Idealize.ShloMosaic Idealize.ShloMosaic.ValueIdx in
/-- **The gathered neighbour embeddings are the specification's.** Neighbour `j` of position `l` reads the padded token
    array at column `l + off j`. Inside the tokens' span that is the token at `l + off j − 8`, and both row gathers read
    the table at the row that token's wrapped id names. Outside, it is the pad word zero, whose wrap is zero and whose
    row is row zero, which holds the zero vector. -/
theorem gathered_neighbour
    (x0 : (⟨S16x2048, .i32⟩ : BufTy).Contents (Elt Ideal)) (x1 : (⟨S8000x256, .f32⟩ : BufTy).Contents (Elt Ideal))
    (hz : ∀ d : Fin 256, x1 (ix2 (⟨0, by norm_num⟩ : Fin 8000) d) = 0)
    (b : Fin 16) (l : Fin 2048) (j : Fin 16) (d : Fin 256) :
    Cert.ReferenceIdeal.Read.val_main_v33 (F := Ideal) x0 x1 (ix4 b l j d)
      = Cert.Spec.nb (Cert.ReferenceIdeal.Read.val_main_v50 (F := Ideal) x0 x1) b l j d := by
  have hl : l.val < 2048 := l.isLt
  have ho := Cert.Spec.off_lt j
  have hL : val_main_v33 (F := Ideal) x0 x1 (ix4 b l j d)
      = x1 (ix2 (row (wrap 8000#32 (val_main_v0 (F := Ideal) x0
          (ix2 b (⟨l.val + Cert.Spec.off j, by omega⟩ : Fin 2064))))) d) := by
    unfold val_main_v33
    refine (gather_rows4 _ _ b l j d).trans ?_
    rw [wrapped_neighbour, neighbour_token]
  rw [hL]
  unfold Cert.Spec.nb
  by_cases h : 8 ≤ l.val + Cert.Spec.off j ∧ l.val + Cert.Spec.off j < 2056
  · rw [dif_pos h]
    unfold val_main_v50
    refine Eq.trans ?_ (gather_rows3 _ _ b _ d).symm
    rw [wrapped_token, padded_inside x0 b ⟨l.val + Cert.Spec.off j, by omega⟩ h]
  · rw [dif_neg h, padded_outside x0 b ⟨l.val + Cert.Spec.off j, by omega⟩ h]
    refine Eq.trans (congrArg x1 ?_) (hz d)
    funext a
    match a with
    | ⟨0, _⟩ => exact Fin.ext (show (row (wrap 8000#32 0#32)).val = 0 by decide)
    | ⟨1, _⟩ => rfl

end Cert.Neighbours
end
-- ==== Proof.RefValue.lean ====
/-
  Two facts about the reference program, read one element at a time.

  The reference's result at (b, d) is a sum over the sequence positions l of a gated blend: (1 − gate) times the
  largest of the sixteen weighted neighbour embeddings, plus the gate times the token's own embedding. Reading the
  program's operations at an index, from the last one (a sum over the sequence axis) back to its gathered arrays,
  gives exactly the specification's G of those gathered arrays, once the neighbour gather is known to hold the
  neighbours' embeddings (zero off either end of the sequence).

  The precondition's last conjunct says every entry of the embedding table's row 0 equals zero.
-/
import proofs.«121150_j77670188581209_2_alg».proof.Proof.Gen.ReferenceIdeal.Read
import proofs.«121150_j77670188581209_2_alg».proof.Proof.Spec
import proofs.«121150_j77670188581209_2_alg».proof.Pre_finite_inputs
import Idealize.ShloMosaic.PureOps.Reduce
import Idealize.ShloMosaic.PureOps.Ideal.Laws
import Idealize.ShloMosaic.Lib.ReduceAll
import Idealize.ShloMosaic.Lib.ValueIdx
import Idealize.ShloMosaic.Lib.Pipeline.Value

noncomputable section

open scoped BigOperators

namespace Cert.RefValue

open Idealize.ShloMosaic Idealize.ShloMosaic.ValueIdx

/-! ## The reference's result is the specification of its gathered arrays -/

section Reference

open Cert.ReferenceIdeal Cert.ReferenceIdeal.Gen

/-- Dropping the neighbour axis of a [16, 2048, 16, 256] index leaves a [16, 2048, 256] one. -/
theorem reduces_d2 : S16x2048x16x256.Reduces [2] S16x2048x256 := by decide

/-- The index (b, l, d) with neighbour k put back on the dropped axis is (b, l, k, d). -/
theorem lift_d2 (b : Fin 16) (l : Fin 2048) (d : Fin 256) (k : Fin (S16x2048x16x256.size 2)) :
    reduces_d2.lift (ix3 b l d) k = ix4 b l (⟨k.val, k.isLt⟩ : Fin 16) d := by
  funext c; apply Fin.ext
  fin_cases c <;> rfl

/-- The word 0xFF800000 is −∞, the least extended real. -/
theorem ofBits_neg_inf : Ideal.ofBits .f32 0xFF800000#32 = (⊥ : EReal) := by
  simp [Ideal.ofBits, Ideal.ieee]

/-- The maximum over the neighbour axis, read at (b, l, d): from −∞, the largest of the sixteen neighbour embeddings
    each times its edge weight — the specification's `best`, given what the neighbour gather holds. -/
theorem v43_apply
    (x0 : (⟨S16x2048, .i32⟩ : BufTy).Contents (Elt Ideal)) (x1 : (⟨S8000x256, .f32⟩ : BufTy).Contents (Elt Ideal))
    (x2 : (⟨S64000001x1, .f32⟩ : BufTy).Contents (Elt Ideal))
    (hnb : ∀ (b : Fin 16) (l : Fin 2048) (j : Fin 16) (d : Fin 256),
      Cert.ReferenceIdeal.Read.val_main_v33 (F := Ideal) x0 x1 (ix4 b l j d)
        = Cert.Spec.nb (Cert.ReferenceIdeal.Read.val_main_v50 (F := Ideal) x0 x1) b l j d)
    (b : Fin 16) (l : Fin 2048) (d : Fin 256) :
    Cert.ReferenceIdeal.Read.val_main_v43 (F := Ideal) x0 x1 x2 (ix3 b l d)
      = Cert.Spec.best (Cert.ReferenceIdeal.Read.val_main_v50 (F := Ideal) x0 x1)
          (Cert.ReferenceIdeal.Read.val_main_v40 (F := Ideal) x0 x2) b l d := by
  unfold Cert.ReferenceIdeal.Read.val_main_v43
  refine (Host.reduce_eq_fold_single FloatOps.maximumf _ _ reducesTo_S16x2048x16x256_S16x2048x256_d2 reduces_d2 h_S_
    (ix3 b l d)).trans ?_
  unfold Cert.Spec.best
  have hinit : Read.val_main_cst (F := Ideal) (Shape.Idx.first h_S_) = (⊥ : EReal) := ofBits_neg_inf
  rw [hinit]
  have hf : (Read.val_main_v42 (F := Ideal) x0 x1 x2 ∘ reduces_d2.lift (ix3 b l d))
      = fun j : Fin 16 => Cert.Spec.nb (Read.val_main_v50 (F := Ideal) x0 x1) b l j d
          * Read.val_main_v40 (F := Ideal) x0 x2 (ix4 b l j (0 : Fin 1)) := by
    funext k
    show Read.val_main_v42 (F := Ideal) x0 x1 x2 (reduces_d2.lift (ix3 b l d) k) = _
    rw [lift_d2, Read.val_main_v42_apply, Read.val_main_v41_apply, hnb]
    show _ * _ = _ * _
    refine congrArg (_ * ·) (congrArg (Read.val_main_v40 (F := Ideal) x0 x2) ?_)
    funext a
    match a with
    | ⟨0, _⟩ => rfl
    | ⟨1, _⟩ => rfl
    | ⟨2, _⟩ => rfl
    | ⟨3, _⟩ => rfl
  exact congrArg (fun f => Finset.fold max (⊥ : EReal) f (Finset.univ : Finset (Fin 16))) hf

open Cert.ReferenceIdeal Idealize.ShloMosaic Idealize.ShloMosaic.ValueIdx in
theorem reference_is_G
    (x0 : (⟨S16x2048, .i32⟩ : BufTy).Contents (Elt Ideal)) (x1 : (⟨S8000x256, .f32⟩ : BufTy).Contents (Elt Ideal))
    (x2 : (⟨S64000001x1, .f32⟩ : BufTy).Contents (Elt Ideal)) (x3 : (⟨S8000x1, .f32⟩ : BufTy).Contents (Elt Ideal))
    (hnb : ∀ (b : Fin 16) (l : Fin 2048) (j : Fin 16) (d : Fin 256),
      Cert.ReferenceIdeal.Read.val_main_v33 (F := Ideal) x0 x1 (ix4 b l j d)
        = Cert.Spec.nb (Cert.ReferenceIdeal.Read.val_main_v50 (F := Ideal) x0 x1) b l j d) :
    Cert.ReferenceIdeal.Read.val_main_v65 (F := Ideal) x0 x1 x2 x3
      = Cert.Spec.G (Cert.ReferenceIdeal.Read.val_main_v50 (F := Ideal) x0 x1)
          (Cert.ReferenceIdeal.Read.val_main_v40 (F := Ideal) x0 x2) (Cert.ReferenceIdeal.Read.val_main_v57 (F := Ideal) x0 x3) := by
  funext i
  obtain ⟨b, d, rfl⟩ : ∃ b d, i = ix2 b d := ⟨i 0, i 1, eq_ix2 i⟩
  rw [Read.val_main_v65_apply]
  have h0 : Read.val_main_cst_15 (F := Ideal) (Shape.Idx.first h_S_) = (0 : EReal) := Ideal.ofBits_zero_f32
  rw [h0, zero_add]
  unfold Cert.Spec.G
  refine Finset.sum_congr rfl fun l _ => ?_
  have hidx : Read.idx_main_v65 (ix2 b d) l = ix3 b l d := by
    funext a
    match a with
    | ⟨0, _⟩ => rfl
    | ⟨1, _⟩ => rfl
    | ⟨2, _⟩ => rfl
  rw [hidx, Read.val_main_v64_apply, Read.val_main_v61_apply, Read.val_main_v63_apply, Read.val_main_v60_apply,
    Read.val_main_v62_apply, Read.val_main_v59_apply, Read.val_main_v58_apply, Read.val_main_cst_14_apply,
    v43_apply x0 x1 x2 hnb]
  have hidx' : Read.idx_main_v60 (ix3 b l d) = ix3 b l (0 : Fin 1) := by
    funext a
    match a with
    | ⟨0, _⟩ => rfl
    | ⟨1, _⟩ => rfl
    | ⟨2, _⟩ => rfl
  have hidx'' : Read.idx_main_v62 (ix3 b l d) = ix3 b l (0 : Fin 1) := hidx'
  rw [hidx', hidx'']
  rfl

end Reference

/-! ## The precondition gives the embedding table's row 0 zero -/

section Precondition

/-- The scalar shape has one index. -/
instance subsingleton_scalar_idx : Subsingleton Cert.Pre_finite_inputs.S_.Idx := ⟨fun a b => funext fun d => d.elim0⟩

/-- An ordered-equal comparison of two extended reals that came out true compared equal values. -/
theorem eq_of_cmp_oeq {x y : EReal} (h : Ideal.cmp .oeq x y = 1#1) : x = y := by
  by_contra hne
  unfold Ideal.cmp at h
  simp only [decide_eq_false hne] at h
  exact absurd h (by decide)

open Idealize.ShloMosaic Idealize.ShloMosaic.ValueIdx in
theorem row0_zero [Cert.Pre_finite_inputs.Facts]
    (a0 : IVec Cert.Pre_finite_inputs.S16x2048 32) (a1 : FVec Ideal Cert.Pre_finite_inputs.S8000x256 .f32)
    (a2 : FVec Ideal Cert.Pre_finite_inputs.S64000001x1 .f32) (a3 : FVec Ideal Cert.Pre_finite_inputs.S8000x1 .f32)
    (h : Cert.Pre_finite_inputs.fn (F := Ideal) a0 a1 a2 a3 = (fun _ => 1#1)) :
    ∀ d : Fin 256, a1 (ix2 (⟨0, by norm_num⟩ : Fin 8000) d) = 0 := by
  intro d
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 (ix2 (0 : Fin 1) d)
  have h3 := eq_of_cmp_oeq h2
  rw [extractStridedSlice_apply ![0, 0] a1 _ (ix2 (0 : Fin 1) d) (ix2 (⟨0, by norm_num⟩ : Fin 8000) d)
        (fun a => by match a with
          | ⟨0, _⟩ => exact (Nat.zero_add _).symm
          | ⟨1, _⟩ => exact (Nat.zero_add _).symm),
      broadcastInDim_apply ![] _ _ (ix2 (0 : Fin 1) d) ix0 (fun a => a.elim0)] at h3
  exact h3.trans Ideal.ofBits_zero_f32

end Precondition

end Cert.RefValue

end
-- ==== Proof.lean ====
/-
  The kernel and its jnp reference compute the same array on the extended reals.

  Both programs gather, for every token of a [16, 2048] batch, its embedding row `Rn`, its gate `Nn` and the weights `Ea`
  of the edges to its sixteen neighbours (the eight positions before it and the eight after it), and return, per batch
  row and feature,

      ∑ l, (1 − Nn l) · max_j (nb l j · Ea l j) + Nn l · Rn l .

  The reference gathers the neighbours' rows with a second gather, at the neighbours' token ids read off the id array
  padded with the id 0; the kernel instead pads the gathered rows `Rn` with zero rows and reads the neighbours as sixteen
  shifted slices of that one array, 128 positions at a time. A neighbour inside the sequence is the same token either
  way, hence the same clamped row of the table. A neighbour beyond either end is, for the reference, the table's row 0
  (the padding id), and for the kernel a zero row: the two agree because the embedding table's padding row is zero,
  which the precondition states. Everything else is a regrouping: a maximum of sixteen taken pairwise or folded from −∞,
  and a sum of 2048 terms taken as sixteen partial sums of 128, both harmless on the extended reals.

  The modules: `Spec` (the function above), `Chunk` / `ChunkAt` / `BlockValue` (the kernel body: one stretch of 128
  positions, read at an index, and the sixteen stretches as one sum), `KernelSpec` / `ArrayValue` (the two grid points'
  blocks as the whole result array), `HostSide` / `KernelBridge` (the staged arrays are the padded, transposed and
  reshaped gathers, so the kernel's result is the function above), `Neighbours` (the reference's neighbour gather read
  at an index), `RefValue` (the reference's result is the function above, and the padding row read off the
  precondition).
-/
import proofs.«121150_j77670188581209_2_alg».proof.Defs
import proofs.«121150_j77670188581209_2_alg».proof.Proof.Gen.Kernel
import proofs.«121150_j77670188581209_2_alg».proof.Proof.Gen.Kernel.Skeleton
import proofs.«121150_j77670188581209_2_alg».proof.Proof.Gen.Kernel.Launch
import proofs.«121150_j77670188581209_2_alg».proof.Proof.Gen.Kernel.Points
import proofs.«121150_j77670188581209_2_alg».proof.Proof.Gen.Kernel.Frame
import proofs.«121150_j77670188581209_2_alg».proof.Proof.Gen.KernelIdeal
import proofs.«121150_j77670188581209_2_alg».proof.Proof.Gen.KernelIdeal.Skeleton
import proofs.«121150_j77670188581209_2_alg».proof.Proof.Gen.KernelIdeal.Launch
import proofs.«121150_j77670188581209_2_alg».proof.Proof.Gen.KernelIdeal.Points
import proofs.«121150_j77670188581209_2_alg».proof.Proof.Gen.KernelIdeal.Frame
import proofs.«121150_j77670188581209_2_alg».proof.Proof.Gen.ReferenceIdeal
import proofs.«121150_j77670188581209_2_alg».proof.Proof.Gen.ReferenceIdeal.Run
import proofs.«121150_j77670188581209_2_alg».proof.Proof.Gen.ReferenceIdeal.Read
import proofs.«121150_j77670188581209_2_alg».proof.Proof.Gen.Pre_finite_inputs
import proofs.«121150_j77670188581209_2_alg».proof.Proof.ArrayValue
import proofs.«121150_j77670188581209_2_alg».proof.Proof.KernelBridge
import proofs.«121150_j77670188581209_2_alg».proof.Proof.Neighbours
import proofs.«121150_j77670188581209_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : @Cert.frame_Kernel Cert.Kernel.Gen.facts Cert.Pre_finite_inputs.Gen.facts :=
  fun m ρ _ => Cert.Kernel.Gen.frame m ρ

/-- So does the kernel read on the extended reals. -/
theorem frame_kernelIdeal : @Cert.frame_KernelIdeal Cert.KernelIdeal.Gen.facts Cert.Pre_finite_inputs.Gen.facts :=
  fun m ρ _ => Cert.KernelIdeal.Gen.frame m ρ

/-- The reference is a straight line of host operations: its run, with the result forgotten. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the four arguments, of which the precondition holds, both programs end with the
    specification's array of the (kernel's) arguments' gathers: the kernel by its block values and its host side, the
    reference by its own operations and the zero padding row. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.Spec.G
      (Cert.ReferenceIdeal.Read.val_main_v50 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.ReferenceIdeal.Read.val_main_v40 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (Cert.ReferenceIdeal.Read.val_main_v57 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg3))), ?_, ?_⟩
  · exact (θ_run Cert.KernelIdeal.defs _ _).mono
      (fun r h c => ⟨(h c).1.trans (Cert.KernelBridge.kernel_is_G m c), (h c).2⟩)
      (Cert.KernelValue.run_kernel m ρ)
  · refine (θ_run Cert.ReferenceIdeal.defs _ _).mono (fun _ h c => ⟨?_, (h c).2⟩)
      (Cert.ReferenceIdeal.Value.run (F := Ideal) m' ρ')
    have hz := Cert.RefValue.row0_zero _ _ _ _ (hpre c)
    rw [(h c).1, Cert.ReferenceIdeal.Read.val_main_v65_eq, (hagree c).1, (hagree c).2.1, (hagree c).2.2.1, (hagree c).2.2.2]
    exact Cert.RefValue.reference_is_G _ _ _ _ (fun b l j d => Cert.Neighbours.gathered_neighbour _ _ hz b l j d)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
